-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S17 : Shape := ⟨1, ![17]⟩
abbrev S17x17 : Shape := ⟨2, ![17, 17]⟩
abbrev S_ : Shape := ⟨0, ![]⟩
abbrev S16 : Shape := ⟨1, ![16]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S17 : S_.BroadcastsInDim S17 (![] : Fin 0 → Fin S17.rank)
  reducesTo_S17_S_d0 : S17.ReducesTo [0] S_
  bcast_S_S17x17 : S_.BroadcastsInDim S17x17 (![] : Fin 0 → Fin S17x17.rank)
  reducesTo_S17x17_S_d0_1 : S17x17.ReducesTo [0, 1] S_
  slices_S17_S16_1 : S17.Slices ![1] S16
  slices_S17_S16_0 : S17.Slices ![0] S16
  bcast_S_S16 : S_.BroadcastsInDim S16 (![] : Fin 0 → Fin S16.rank)
  reducesTo_S16_S_d0 : S16.ReducesTo [0] S_

variable [Facts]

def fn_part2 {F : FTy → Type} [FloatOps F] (main_v30 : IVec S_ 1) (main_v33 : FVec F S16 .f32) (main_v34 : FVec F S16 .f32) : IVec S_ 1 :=
  let main_v35 : IVec S16 1 := cmpf .une main_v33 main_v34
  let main_c_11 : IVec S_ 1 := constantI S_ 1 1#1
  let main_v36 : IVec S_ 1 := (fun x v => Host.reduce IntOp.andi x v reducesTo_S16_S_d0 h_S_) main_v35 main_c_11
  let main_v37 : IVec S_ 1 := andi main_v30 main_v36
  main_v37

def fn_part1 {F : FTy → Type} [FloatOps F] (main_arg2 : FVec F S17 .f32) (main_arg3 : FVec F S17 .f32) (main_arg4 : FVec F S17x17 .f32) (main_v13 : IVec S_ 1) (main_v16 : IVec S17 1) : IVec S_ 1 :=
  let main_c_5 : IVec S_ 1 := constantI S_ 1 1#1
  let main_v17 : IVec S_ 1 := (fun x v => Host.reduce IntOp.andi x v reducesTo_S17_S_d0 h_S_) main_v16 main_c_5
  let main_v18 : IVec S_ 1 := andi main_v13 main_v17
  let main_v19 : FVec F S17x17 .f32 := Host.absf main_arg4
  let main_cst_6 : FVec F S_ .f32 := constant S_ .f32 0x7F800000#32
  let main_v20 : FVec F S17x17 .f32 := broadcastInDim S17x17 ![] bcast_S_S17x17 main_cst_6
  let main_v21 : IVec S17x17 1 := cmpf .olt main_v19 main_v20
  let main_c_7 : IVec S_ 1 := constantI S_ 1 1#1
  let main_v22 : IVec S_ 1 := (fun x v => Host.reduce IntOp.andi x v reducesTo_S17x17_S_d0_1 h_S_) main_v21 main_c_7
  let main_v23 : IVec S_ 1 := andi main_v18 main_v22
  let main_v24 : FVec F S16 .f32 := (extractStridedSlice S16 ![1] · slices_S17_S16_1) main_arg2
  let main_v25 : FVec F S16 .f32 := (extractStridedSlice S16 ![0] · slices_S17_S16_0) main_arg2
  let main_v26 : FVec F S16 .f32 := subf main_v24 main_v25
  let main_cst_8 : FVec F S_ .f32 := constant S_ .f32 0x00000000#32
  let main_v27 : FVec F S16 .f32 := broadcastInDim S16 ![] bcast_S_S16 main_cst_8
  let main_v28 : IVec S16 1 := cmpf .une main_v26 main_v27
  let main_c_9 : IVec S_ 1 := constantI S_ 1 1#1
  let main_v29 : IVec S_ 1 := (fun x v => Host.reduce IntOp.andi x v reducesTo_S16_S_d0 h_S_) main_v28 main_c_9
  let main_v30 : IVec S_ 1 := andi main_v23 main_v29
  let main_v31 : FVec F S16 .f32 := (extractStridedSlice S16 ![1] · slices_S17_S16_1) main_arg3
  let main_v32 : FVec F S16 .f32 := (extractStridedSlice S16 ![0] · slices_S17_S16_0) main_arg3
  let main_v33 : FVec F S16 .f32 := subf main_v31 main_v32
  let main_cst_10 : FVec F S_ .f32 := constant S_ .f32 0x00000000#32
  let main_v34 : FVec F S16 .f32 := broadcastInDim S16 ![] bcast_S_S16 main_cst_10
  fn_part2 (F := F) main_v30 main_v33 main_v34

def fn {F : FTy → Type} [FloatOps F] (main_arg0 : FVec F S4194304 .f32) (main_arg1 : FVec F S4194304 .f32) (main_arg2 : FVec F S17 .f32) (main_arg3 : FVec F S17 .f32) (main_arg4 : FVec F S17x17 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S17 .f32 := Host.absf main_arg2
  let main_cst_2 : FVec F S_ .f32 := constant S_ .f32 0x7F800000#32
  let main_v10 : FVec F S17 .f32 := broadcastInDim S17 ![] bcast_S_S17 main_cst_2
  let main_v11 : IVec S17 1 := cmpf .olt main_v9 main_v10
  let main_c_3 : IVec S_ 1 := constantI S_ 1 1#1
  let main_v12 : IVec S_ 1 := (fun x v => Host.reduce IntOp.andi x v reducesTo_S17_S_d0 h_S_) main_v11 main_c_3
  let main_v13 : IVec S_ 1 := andi main_v8 main_v12
  let main_v14 : FVec F S17 .f32 := Host.absf main_arg3
  let main_cst_4 : FVec F S_ .f32 := constant S_ .f32 0x7F800000#32
  let main_v15 : FVec F S17 .f32 := broadcastInDim S17 ![] bcast_S_S17 main_cst_4
  let main_v16 : IVec S17 1 := cmpf .olt main_v14 main_v15
  fn_part1 (F := F) main_arg2 main_arg3 main_arg4 main_v13 main_v16
-- ==== Kernel.lean ====
abbrev S4194304 : Shape := ⟨1, ![4194304]⟩
abbrev S17 : Shape := ⟨1, ![17]⟩
abbrev S17x17 : Shape := ⟨2, ![17, 17]⟩
abbrev S16 : Shape := ⟨1, ![16]⟩
abbrev S16x1 : Shape := ⟨2, ![16, 1]⟩
abbrev S_ : Shape := ⟨0, ![]⟩
abbrev S16x16 : Shape := ⟨2, ![16, 16]⟩
abbrev S16x32 : Shape := ⟨2, ![16, 32]⟩
abbrev S32x32 : Shape := ⟨2, ![32, 32]⟩
abbrev S16384 : Shape := ⟨1, ![16384]⟩
abbrev S1x16384 : Shape := ⟨2, ![1, 16384]⟩
abbrev S16x16384 : Shape := ⟨2, ![16, 16384]⟩
abbrev S32x16384 : Shape := ⟨2, ![32, 16384]⟩

abbrev nBuf : Space → Nat
  | .hbm => 33
  | .vmem => 13
  | .smem => 0
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S17, .f32⟩
  | .hbm, ⟨3, _⟩ => ⟨S17, .f32⟩
  | .hbm, ⟨4, _⟩ => ⟨S17x17, .f32⟩
  | .hbm, ⟨5, _⟩ => ⟨S16, .f32⟩
  | .hbm, ⟨6, _⟩ => ⟨S16x1, .f32⟩
  | .hbm, ⟨7, _⟩ => ⟨S16, .f32⟩
  | .hbm, ⟨8, _⟩ => ⟨S16x1, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S16, .f32⟩
  | .hbm, ⟨14, _⟩ => ⟨S16x1, .f32⟩
  | .hbm, ⟨15, _⟩ => ⟨S16, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S16x16, .f32⟩
  | .hbm, ⟨26, _⟩ => ⟨S16x16, .f32⟩
  | .hbm, ⟨27, _⟩ => ⟨S16x32, .f32⟩
  | .hbm, ⟨28, _⟩ => ⟨S16x16, .f32⟩
  | .hbm, ⟨29, _⟩ => ⟨S16x16, .f32⟩
  | .hbm, ⟨30, _⟩ => ⟨S16x32, .f32⟩
  | .hbm, ⟨31, _⟩ => ⟨S32x32, .f32⟩
  | .hbm, ⟨32, _⟩ => ⟨S4194304, .f32⟩
  | .local _ .vmem, ⟨0, _⟩ => ⟨S16384, .f32⟩
  | .local _ .vmem, ⟨1, _⟩ => ⟨S16384, .f32⟩
  | .local _ .vmem, ⟨2, _⟩ => ⟨S16384, .f32⟩
  | .local _ .vmem, ⟨3, _⟩ => ⟨S16384, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S16x1, .f32⟩
  | .local _ .vmem, ⟨10, _⟩ => ⟨S32x32, .f32⟩
  | .local _ .vmem, ⟨11, _⟩ => ⟨S16384, .f32⟩
  | .local _ .vmem, ⟨12, _⟩ => ⟨S16384, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S17_S16_0 : S17.Slices ![0] S16
  shapeCasts_S16_S16x1 : S16.ShapeCasts S16x1
  slices_S17_S16_1 : S17.Slices ![1] S16
  bcast_S_S16x1 : S_.BroadcastsInDim S16x1 (![] : Fin 0 → Fin S16x1.rank)
  slices_S17x17_S16x16_0_0 : S17x17.Slices ![0, 0] S16x16
  slices_S17x17_S16x16_1_0 : S17x17.Slices ![1, 0] S16x16
  slices_S17x17_S16x16_0_1 : S17x17.Slices ![0, 1] S16x16
  slices_S17x17_S16x16_1_1 : S17x17.Slices ![1, 1] S16x16
  transposes_S16x16_S16x16_1_0 : S16x16.Transposes [1, 0] S16x16
  concatenates_S16x16_S16x16_S16x32_d1 : Shape.Concatenates [S16x16, S16x16] S16x32 1
  concatenates_S16x32_S16x32_S32x32_d0 : Shape.Concatenates [S16x32, S16x32] S32x32 0
  inb_S16384_S16384_0 : ∀ a, (![0] : Fin 1 → Nat) a + S16384.size a ≤ S16384.size a
  h_S16384 : 0 < S16384.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S16384_S1x16384 : S16384.ShapeCasts S1x16384
  broadcasts_S1x16384_S16x16384 : S1x16384.Broadcasts S16x16384
  broadcasts_S16x1_S16x16384 : S16x1.Broadcasts S16x16384
  concatenates_S16x16384_S16x16384_S32x16384_d0 : Shape.Concatenates [S16x16384, S16x16384] S32x16384 0
  reduces_S32x16384_S16384 : S32x16384.Reduces [0] S16384
  dot_S32x32_S32x16384_S32x16384_1_0_0_1_n_n_wf : DotDims.WF S32x32 S32x16384 S32x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S4194304.size a
  hwx0_0 : ∀ i : grid0.Coords, EltTy.bits .f32 = 32 ∨ (Rect.block (s := S4194304) S16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S4194304.size a
  hwx0_1 : ∀ i : grid0.Coords, EltTy.bits .f32 = 32 ∨ (Rect.block (s := S4194304) S16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16384.size a ≤ S4194304.size a
  hwx0_9 : ∀ i : grid0.Coords, EltTy.bits .f32 = 32 ∨ (Rect.block (s := S4194304) S16384.size (cc0_transform_9 i) (hinb0_9 i)).WholeWords (EltTy.packing .f32)

variable [Facts₀]

def dot_S32x32_S32x16384_S32x16384_1_0_0_1_n_n : DotDims S32x32 S32x16384 S32x16384 where
  lhsContracting := [1]
  rhsContracting := [0]
  lhsNonContracting := [0]
  rhsNonContracting := [1]
  lhsBatch := []
  rhsBatch := []
  wf := dot_S32x32_S32x16384_S32x16384_1_0_0_1_n_n_wf

abbrev win0_0 : Pipeline.Window sig grid0 :=
  Pipeline.Window.ofSpec (Memref.whole main_arg0) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S16384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4194304 : Shape := ⟨1, ![4194304]⟩
abbrev S17 : Shape := ⟨1, ![17]⟩
abbrev S17x17 : Shape := ⟨2, ![17, 17]⟩
abbrev S16 : Shape := ⟨1, ![16]⟩
abbrev S4194304x1 : Shape := ⟨2, ![4194304, 1]⟩
abbrev S1x16 : Shape := ⟨2, ![1, 16]⟩
abbrev S4194304x16 : Shape := ⟨2, ![4194304, 16]⟩
abbrev S_ : Shape := ⟨0, ![]⟩
abbrev S16x16 : Shape := ⟨2, ![16, 16]⟩

abbrev nBuf : Space → Nat
  | .hbm => 88
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S17, .f32⟩
  | .hbm, ⟨3, _⟩ => ⟨S17, .f32⟩
  | .hbm, ⟨4, _⟩ => ⟨S17x17, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S4194304x1, .f32⟩
  | .hbm, ⟨12, _⟩ => ⟨S4194304x1, .f32⟩
  | .hbm, ⟨13, _⟩ => ⟨S1x16, .f32⟩
  | .hbm, ⟨14, _⟩ => ⟨S4194304x16, .f32⟩
  | .hbm, ⟨15, _⟩ => ⟨S4194304x16, .f32⟩
  | .hbm, ⟨16, _⟩ => ⟨S4194304x16, .f32⟩
  | .hbm, ⟨17, _⟩ => ⟨S_, .f32⟩
  | .hbm, ⟨18, _⟩ => ⟨S4194304x16, .f32⟩
  | .hbm, ⟨19, _⟩ => ⟨S4194304x16, .f32⟩
  | .hbm, ⟨20, _⟩ => ⟨S1x16, .f32⟩
  | .hbm, ⟨21, _⟩ => ⟨S4194304x16, .f32⟩
  | .hbm, ⟨22, _⟩ => ⟨S4194304x16, .f32⟩
  | .hbm, ⟨23, _⟩ => ⟨S4194304x16, .f32⟩
  | .hbm, ⟨24, _⟩ => ⟨S_, .f32⟩
  | .hbm, ⟨25, _⟩ => ⟨S4194304x16, .f32⟩
  | .hbm, ⟨26, _⟩ => ⟨S4194304x16, .f32⟩
  | .hbm, ⟨27, _⟩ => ⟨S4194304x16, .f32⟩
  | .hbm, ⟨28, _⟩ => ⟨S1x16, .f32⟩
  | .hbm, ⟨29, _⟩ => ⟨S4194304x16, .f32⟩
  | .hbm, ⟨30, _⟩ => ⟨S4194304x16, .f32⟩
  | .hbm, ⟨31, _⟩ => ⟨S1x16, .f32⟩
  | .hbm, ⟨32, _⟩ => ⟨S4194304x16, .f32⟩
  | .hbm, ⟨33, _⟩ => ⟨S4194304x16, .f32⟩
  | .hbm, ⟨34, _⟩ => ⟨S4194304x16, .f32⟩
  | .hbm, ⟨35, _⟩ => ⟨S_, .f32⟩
  | .hbm, ⟨36, _⟩ => ⟨S4194304x16, .f32⟩
  | .hbm, ⟨37, _⟩ => ⟨S4194304x16, .f32⟩
  | .hbm, ⟨38, _⟩ => ⟨S1x16, .f32⟩
  | .hbm, ⟨39, _⟩ => ⟨S4194304x16, .f32⟩
  | .hbm, ⟨40, _⟩ => ⟨S4194304x16, .f32⟩
  | .hbm, ⟨41, _⟩ => ⟨S4194304x16, .f32⟩
  | .hbm, ⟨42, _⟩ => ⟨S_, .f32⟩
  | .hbm, ⟨43, _⟩ => ⟨S4194304x16, .f32⟩
  | .hbm, ⟨44, _⟩ => ⟨S4194304x16, .f32⟩
  | .hbm, ⟨45, _⟩ => ⟨S4194304x16, .f32⟩
  | .hbm, ⟨46, _⟩ => ⟨S1x16, .f32⟩
  | .hbm, ⟨47, _⟩ => ⟨S4194304x16, .f32⟩
  | .hbm, ⟨48, _⟩ => ⟨S4194304x16, .f32⟩
  | .hbm, ⟨49, _⟩ => ⟨S1x16, .f32⟩
  | .hbm, ⟨50, _⟩ => ⟨S4194304x16, .f32⟩
  | .hbm, ⟨51, _⟩ => ⟨S4194304x16, .f32⟩
  | .hbm, ⟨52, _⟩ => ⟨S4194304x16, .f32⟩
  | .hbm, ⟨53, _⟩ => ⟨S1x16, .f32⟩
  | .hbm, ⟨54, _⟩ => ⟨S4194304x16, .f32⟩
  | .hbm, ⟨55, _⟩ => ⟨S4194304x16, .f32⟩
  | .hbm, ⟨56, _⟩ => ⟨S1x16, .f32⟩
  | .hbm, ⟨57, _⟩ => ⟨S4194304x16, .f32⟩
  | .hbm, ⟨58, _⟩ => ⟨S4194304x16, .f32⟩
  | .hbm, ⟨59, _⟩ => ⟨S4194304x16, .f32⟩
  | .hbm, ⟨60, _⟩ => ⟨S1x16, .f32⟩
  | .hbm, ⟨61, _⟩ => ⟨S4194304x16, .f32⟩
  | .hbm, ⟨62, _⟩ => ⟨S4194304x16, .f32⟩
  | .hbm, ⟨63, _⟩ => ⟨S_, .f32⟩
  | .hbm, ⟨64, _⟩ => ⟨S4194304x16, .f32⟩
  | .hbm, ⟨65, _⟩ => ⟨S4194304x16, .f32⟩
  | .hbm, ⟨66, _⟩ => ⟨S4194304x16, .f32⟩
  | .hbm, ⟨67, _⟩ => ⟨S4194304x16, .f32⟩
  | .hbm, ⟨68, _⟩ => ⟨S_, .f32⟩
  | .hbm, ⟨69, _⟩ => ⟨S4194304x16, .f32⟩
  | .hbm, ⟨70, _⟩ => ⟨S4194304x16, .f32⟩
  | .hbm, ⟨71, _⟩ => ⟨S4194304x16, .f32⟩
  | .hbm, ⟨72, _⟩ => ⟨S4194304x16, .f32⟩
  | .hbm, ⟨73, _⟩ => ⟨S16x16, .f32⟩
  | .hbm, ⟨74, _⟩ => ⟨S16x16, .f32⟩
  | .hbm, ⟨75, _⟩ => ⟨S16x16, .f32⟩
  | .hbm, ⟨76, _⟩ => ⟨S16x16, .f32⟩
  | .hbm, ⟨77, _⟩ => ⟨S4194304x16, .f32⟩
  | .hbm, ⟨78, _⟩ => ⟨S4194304x16, .f32⟩
  | .hbm, ⟨79, _⟩ => ⟨S4194304x16, .f32⟩
  | .hbm, ⟨80, _⟩ => ⟨S4194304x16, .f32⟩
  | .hbm, ⟨81, _⟩ => ⟨S4194304x16, .f32⟩
  | .hbm, ⟨82, _⟩ => ⟨S4194304x16, .f32⟩
  | .hbm, ⟨83, _⟩ => ⟨S4194304x16, .f32⟩
  | .hbm, ⟨84, _⟩ => ⟨S4194304x16, .f32⟩
  | .hbm, ⟨85, _⟩ => ⟨S4194304x16, .f32⟩
  | .hbm, ⟨86, _⟩ => ⟨S_, .f32⟩
  | .hbm, ⟨87, _⟩ => ⟨S4194304, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_cst : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call2_cst : Ref sig .tc := ⟨.hbm, 35, rfl⟩
abbrev main_call2_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call3_cst : Ref sig .tc := ⟨.hbm, 42, rfl⟩
abbrev main_call3_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_0 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_1 : Ref sig .tc := ⟨.hbm, 86, rfl⟩
abbrev main_v71 : Ref sig .tc := ⟨.hbm, 87, rfl⟩

abbrev nD : Nat := 1
abbrev τ : Topo := Topo.v7x

variable {F : FTy → Type} [FloatOps F]

class Facts₀ : Prop where
  slices_S17_S16_0 : S17.Slices ![0] S16
  slices_S17_S16_1 : S17.Slices ![1] S16
  bcast_S4194304_S4194304x1_0 : S4194304.BroadcastsInDim S4194304x1 (![0] : Fin 1 → Fin S4194304x1.rank)
  bcast_S16_S1x16_1 : S16.BroadcastsInDim S1x16 (![1] : Fin 1 → Fin S1x16.rank)
  bcast_S4194304x1_S4194304x16_0_1 : S4194304x1.BroadcastsInDim S4194304x16 (![0, 1] : Fin 2 → Fin S4194304x16.rank)
  bcast_S1x16_S4194304x16_0_1 : S1x16.BroadcastsInDim S4194304x16 (![0, 1] : Fin 2 → Fin S4194304x16.rank)
  bcast_S_S4194304x16 : S_.BroadcastsInDim S4194304x16 (![] : Fin 0 → Fin S4194304x16.rank)
  slices_S17x17_S16x16_0_0 : S17x17.Slices ![0, 0] S16x16
  slices_S17x17_S16x16_1_0 : S17x17.Slices ![1, 0] S16x16
  slices_S17x17_S16x16_0_1 : S17x17.Slices ![0, 1] S16x16
  slices_S17x17_S16x16_1_1 : S17x17.Slices ![1, 1] S16x16
  reducesTo_S4194304x16_S4194304_d1 : S4194304x16.ReducesTo [1] S4194304
  h_S_ : 0 < S_.numel
  dot_S4194304x16_S16x16_S4194304x16_1_0_0_1_n_n_wf : DotDims.WF S4194304x16 S16x16 S4194304x16 [1] [0] [0] [1] [] []

variable [Facts₀]

def dot_S4194304x16_S16x16_S4194304x16_1_0_0_1_n_n : DotDims S4194304x16 S16x16 S4194304x16 where
  lhsContracting := [1]
  rhsContracting := [0]
  lhsNonContracting := [0]
  rhsNonContracting := [1]
  lhsBatch := []
  rhsBatch := []
  wf := dot_S4194304x16_S16x16_S4194304x16_1_0_0_1_n_n_wf

class Facts : Prop extends Facts₀ where

variable [Facts]
-- ==== Proof.Spec.lean ====
/-
  Piecewise-bilinear interpolation over a 16 × 16 grid of cells with EVERY cell's contribution kept.

  For a query coordinate `x` and a cell between the knots `p0` and `p1` the cell's indicator is the hinge difference
  `(max (x - p0) 0 - max (x - p1) 0) / (p1 - p0)` and its relative position is `(x - p0) / (p1 - p0)`; the cell's two
  weights are `indicator · (1 - position)` (toward the lower knot) and `indicator · position` (toward the upper knot).
  With the x-weights `a, b`, the y-weights `c, d` and the grid values `z`, the interpolant is
      ∑ j, ((∑ i, a i · z i j + ∑ i, b i · z (i+1) j) · c j + (∑ i, a i · z i (j+1) + ∑ i, b i · z (i+1) (j+1)) · d j).

  Two things are proved here, over the extended reals.
  * Dividing by a NONZERO cell width `w` is multiplying by `1 / w` (`mul_recip`): both are the product with `w⁻¹`.
    At `w = 0` the two differ (`0 / 0` against `0 · (1 / 0)`), which is why the widths are assumed nonzero.
  * The same interpolant written as ONE contraction of the stacked weights `[a; b]` with the 32 × 32 block matrix
    `[[z00ᵀ, z10ᵀ], [z01ᵀ, z11ᵀ]]`, multiplied by `[c; d]` and summed over the 32 rows (`stacked_eq_cells`): a sum over
    32 indices is the sum over its two halves, and sums and products of extended reals commute and associate; no
    distributivity is used, so no finiteness is needed.
-/
import Idealize.ShloMosaic.PureOps.Ideal
import Idealize.ShloMosaic.PureOps.Ideal.Laws
import Idealize.ShloMosaic.Lib.ValueIdx

noncomputable section

open scoped BigOperators

namespace Cert.Interp

open Idealize.ShloMosaic

/-- The zero both programs clamp the hinges at. -/
abbrev zeroW : EReal := Ideal.ofBits .f32 0x00000000#32
/-- The one both programs subtract the relative position from, and whose quotient by a width is the reciprocal. -/
abbrev oneW : EReal := Ideal.ofBits .f32 0x3F800000#32

/-- The word `0x3F800000` denotes the real number one. -/
theorem oneW_eq : oneW = 1 := by
  simp [Ideal.ofBits, Ideal.ieee]
  rw [← EReal.coe_mul, ← EReal.coe_one]
  exact congrArg _ (by norm_num)

/-! ## One cell's weights, by division and by the reciprocal -/

/-- The hinge difference of a cell: `0` below the cell, `x - p0` inside it, `p1 - p0` above it. -/
def hinge (x p0 p1 : EReal) : EReal := max (x - p0) zeroW - max (x - p1) zeroW

/-- The weight toward the lower knot, the width dividing. -/
def loDiv (x p0 p1 : EReal) : EReal :=
  Ideal.div (hinge x p0 p1) (p1 - p0) * (oneW - Ideal.div (x - p0) (p1 - p0))
/-- The weight toward the upper knot, the width dividing. -/
def hiDiv (x p0 p1 : EReal) : EReal :=
  Ideal.div (hinge x p0 p1) (p1 - p0) * Ideal.div (x - p0) (p1 - p0)

/-- The weight toward the lower knot, a given reciprocal `r` multiplying. -/
def loMul (x p0 p1 r : EReal) : EReal := hinge x p0 p1 * r * (oneW - (x - p0) * r)
/-- The weight toward the upper knot, a given reciprocal `r` multiplying. -/
def hiMul (x p0 p1 r : EReal) : EReal := hinge x p0 p1 * r * ((x - p0) * r)

/-- The product with the quotient `1 / w` is the quotient by `w`, for every nonzero `w`, infinite ones included: both are
    the product with `w⁻¹`. -/
theorem mul_recip (u w : EReal) (hw : w ≠ 0) : u * Ideal.div oneW w = Ideal.div u w := by
  unfold Ideal.div
  rw [if_neg hw, if_neg hw, oneW_eq, one_mul]

theorem loMul_recip (x p0 p1 : EReal) (hw : p1 - p0 ≠ 0) :
    loMul x p0 p1 (Ideal.div oneW (p1 - p0)) = loDiv x p0 p1 := by
  unfold loMul loDiv
  rw [mul_recip _ _ hw, mul_recip _ _ hw]

theorem hiMul_recip (x p0 p1 : EReal) (hw : p1 - p0 ≠ 0) :
    hiMul x p0 p1 (Ideal.div oneW (p1 - p0)) = hiDiv x p0 p1 := by
  unfold hiMul hiDiv
  rw [mul_recip _ _ hw, mul_recip _ _ hw]

/-! ## The interpolant, cell by cell and as one stacked contraction -/

/-- Cell by cell: for each cell column `j`, the two x-contractions against the four corner grids, weighted by the
    y-weights. -/
def cells (a b c d : Fin 16 → EReal) (z : Fin 17 → Fin 17 → EReal) : EReal :=
  ∑ j : Fin 16,
    ((∑ i : Fin 16, a i * z i.castSucc j.castSucc + ∑ i : Fin 16, b i * z i.succ j.castSucc) * c j
      + (∑ i : Fin 16, a i * z i.castSucc j.succ + ∑ i : Fin 16, b i * z i.succ j.succ) * d j)

/-- Two families of 16 stacked into one of 32. -/
def stack (f g : Fin 16 → EReal) : Fin 32 → EReal :=
  fun k => if h : k.val < 16 then f ⟨k.val, h⟩ else g ⟨k.val - 16, by have := k.isLt; omega⟩

/-- The block matrix `[[z00ᵀ, z10ᵀ], [z01ᵀ, z11ᵀ]]`: row `r` picks the cell column (and the lower or upper y-corner),
    column `k` the cell row (and the lower or upper x-corner). -/
def blockMat (z : Fin 17 → Fin 17 → EReal) : Fin 32 → Fin 32 → EReal := fun r k =>
  stack (fun j => stack (fun i => z i.castSucc j.castSucc) (fun i => z i.succ j.castSucc) k)
    (fun j => stack (fun i => z i.castSucc j.succ) (fun i => z i.succ j.succ) k) r

/-- One contraction of a 32 × 32 matrix with the stacked x-weights, times the stacked y-weights, summed over the rows. -/
def stacked (M : Fin 32 → Fin 32 → EReal) (a b c d : Fin 16 → EReal) : EReal :=
  ∑ r : Fin 32, (∑ k : Fin 32, M r k * stack a b k) * stack c d r

theorem stack_lo (f g : Fin 16 → EReal) (i : Fin 16) (h : i.val < 32) : stack f g ⟨i.val, h⟩ = f i := by
  unfold stack
  rw [dif_pos (show (⟨i.val, h⟩ : Fin 32).val < 16 from i.isLt)]

theorem stack_hi (f g : Fin 16 → EReal) (i : Fin 16) (h : 16 + i.val < 32) : stack f g ⟨16 + i.val, h⟩ = g i := by
  unfold stack
  rw [dif_neg (show ¬ (⟨16 + i.val, h⟩ : Fin 32).val < 16 from by show ¬ 16 + i.val < 16; omega)]
  exact congrArg g (Fin.ext (by show 16 + i.val - 16 = i.val; omega))

/-- A sum over 32 indices is the sum over the first 16 plus the sum over the last 16. -/
theorem sum_halves (φ : Fin 32 → EReal) :
    ∑ k : Fin 32, φ k = ∑ i : Fin 16, φ ⟨i.val, by have := i.isLt; omega⟩ + ∑ i : Fin 16, φ ⟨16 + i.val, by have := i.isLt; omega⟩ :=
  Fin.sum_univ_add (a := 16) (b := 16) φ

/-- The stacked contraction with the block matrix is the cell-by-cell interpolant. -/
theorem stacked_eq_cells (a b c d : Fin 16 → EReal) (z : Fin 17 → Fin 17 → EReal) :
    stacked (blockMat z) a b c d = cells a b c d z := by
  unfold stacked cells blockMat
  rw [sum_halves]
  simp only [sum_halves (fun k => _ * stack a b k), stack_lo, stack_hi]
  rw [← Finset.sum_add_distrib]
  refine Finset.sum_congr rfl fun j _ => ?_
  simp only [mul_comm (z _ _) _]

/-- With nonzero widths, the stacked contraction over the reciprocal-multiplied weights is the cell-by-cell interpolant
    over the width-divided weights. -/
theorem stacked_recip_eq_cells (X Y : EReal) (xp yp : Fin 17 → EReal) (z : Fin 17 → Fin 17 → EReal)
    (hx : ∀ i : Fin 16, xp i.succ - xp i.castSucc ≠ 0) (hy : ∀ j : Fin 16, yp j.succ - yp j.castSucc ≠ 0) :
    stacked (blockMat z)
        (fun i => loMul X (xp i.castSucc) (xp i.succ) (Ideal.div oneW (xp i.succ - xp i.castSucc)))
        (fun i => hiMul X (xp i.castSucc) (xp i.succ) (Ideal.div oneW (xp i.succ - xp i.castSucc)))
        (fun j => loMul Y (yp j.castSucc) (yp j.succ) (Ideal.div oneW (yp j.succ - yp j.castSucc)))
        (fun j => hiMul Y (yp j.castSucc) (yp j.succ) (Ideal.div oneW (yp j.succ - yp j.castSucc)))
      = cells (fun i => loDiv X (xp i.castSucc) (xp i.succ)) (fun i => hiDiv X (xp i.castSucc) (xp i.succ))
          (fun j => loDiv Y (yp j.castSucc) (yp j.succ)) (fun j => hiDiv Y (yp j.castSucc) (yp j.succ)) z := by
  rw [stacked_eq_cells]
  simp only [loMul_recip _ _ _ (hx _), hiMul_recip _ _ _ (hx _), loMul_recip _ _ _ (hy _), hiMul_recip _ _ _ (hy _)]

/-! ## The whole result -/

open Idealize.ShloMosaic.ValueIdx in
/-- THE RESULT ARRAY: at query `p`, the cell-by-cell interpolant of `(x p, y p)` over the knots `xp`, `yp` and the grid
    values `z`, the widths dividing. -/
def interpolant (x y : (⟨1, ![4194304]⟩ : Shape).Idx → EReal) (xp yp : (⟨1, ![17]⟩ : Shape).Idx → EReal)
    (z : (⟨2, ![17, 17]⟩ : Shape).Idx → EReal) : (⟨1, ![4194304]⟩ : Shape).Idx → EReal := fun p =>
  cells (fun i => loDiv (x p) (xp (ix1 i.castSucc)) (xp (ix1 i.succ)))
    (fun i => hiDiv (x p) (xp (ix1 i.castSucc)) (xp (ix1 i.succ)))
    (fun j => loDiv (y p) (yp (ix1 j.castSucc)) (yp (ix1 j.succ)))
    (fun j => hiDiv (y p) (yp (ix1 j.castSucc)) (yp (ix1 j.succ)))
    (fun a b => z (ix2 a b))

end Cert.Interp

end
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPoint.lean ====
/-
  What one grid step of the kernel stores, read at one query point.

  The step loads a block of 16384 query coordinates `x`, `y`, the sixteen cells' lower knots, upper knots and reciprocal
  widths on each axis as columns, and a 32 × 32 matrix `M`. At the query in lane `q` it forms, for every cell `i`, the
  hinge weights `loMul` / `hiMul` of `x q` (stacked as 32 rows) and likewise of `y q`, contracts `M` with the stacked
  x-weights, multiplies by the stacked y-weights and sums the 32 rows: `Interp.stacked M a b c d`.
  Each non-pointwise step is read at an index by one small lemma: a row or a column broadcast, the two stackings, the matrix
  product into a zero accumulator as a sum over the contracted index, the sum over the 32 rows.
-/
import proofs.«126998_j44014824849725_2_alg».proof.Proof.Gen.KernelIdeal.Frame
import proofs.«126998_j44014824849725_2_alg».proof.Proof.Spec
import proofs.«126998_j44014824849725_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx Cert.Interp

theorem hz1 : (![0] : Fin 1 → Nat) = fun _ => 0 := funext fun a => by fin_cases a; rfl
theorem hz2 : (![0, 0] : Fin 2 → Nat) = fun _ => 0 := funext fun a => by fin_cases a <;> rfl

/-! ## The layout steps at an index -/

/-- A block of query coordinates laid as one row and repeated over the sixteen cells reads the query's coordinate. -/
theorem row_apply (v : FVec Ideal S16384 .f32) (hc : S16384.ShapeCasts S1x16384) (hb : S1x16384.Broadcasts S16x16384)
    (i : Fin 16) (q : Fin 16384) :
    broadcastTo S16x16384 (shapeCast S1x16384 v hc) hb (ix2 i q) = v (ix1 q) :=
  (broadcastTo_1b_ab_apply _ hb i q).trans (shapeCast_a_1a_apply v hc 0 q)

/-- A column of per-cell values repeated over the lanes reads the cell's value. -/
theorem col_apply (v : FVec Ideal S16x1 .f32) (hc : S16x1.ShapeCasts S16x1) (hb : S16x1.Broadcasts S16x16384)
    (i : Fin 16) (q : Fin 16384) :
    broadcastTo S16x16384 (shapeCast S16x1 v hc) hb (ix2 i q) = v (ix2 i (0 : Fin 1)) := by
  rw [shapeCast_self]
  exact broadcastTo_a1_ab_apply v hb i q

/-- Two 16-row blocks stacked along the rows read, at row `r`, the first block's row `r` or the second's row `r - 16`. -/
theorem stack_apply (u w : FVec Ideal S16x16384 .f32) (h : Shape.Concatenates [S16x16384, S16x16384] S32x16384 0)
    (r : Fin 32) (q : Fin 16384) :
    concatenate S32x16384 0 [⟨S16x16384, u⟩, ⟨S16x16384, w⟩] h (ix2 r q)
      = stack (fun i => u (ix2 i q)) (fun i => w (ix2 i q)) r := by
  unfold stack
  by_cases hr : r.val < 16
  · rw [dif_pos hr]
    refine concatenate_pair_apply_left (0 : Fin 2) u w h (ix2 r q) rfl (ix2 ⟨r.val, hr⟩ q) fun b => ?_
    match b with
    | ⟨0, _⟩ => rfl
    | ⟨1, _⟩ => rfl
  · rw [dif_neg hr]
    refine concatenate_pair_apply_right (0 : Fin 2) u w h (ix2 r q) rfl rfl (ix2 ⟨r.val - 16, by have := r.isLt; omega⟩ q) (fun b hb => ?_) ?_
    · match b with
      | ⟨0, _⟩ => exact absurd rfl hb
      | ⟨1, _⟩ => rfl
    · show r.val - 16 + 16 = r.val
      omega

/-- The matrix product into a zero accumulator, at row `r` and lane `q`: the sum over the 32 contracted rows. -/
theorem matmul_apply32 (M : FVec Ideal S32x32 .f32) (w : FVec Ideal S32x16384 .f32) (prec : Option ContractPrecision)
    (r : Fin 32) (q : Fin 16384) :
    matmul dot_S32x32_S32x16384_S32x16384_1_0_0_1_n_n prec M w (constant S32x16384 .f32 0x00000000#32) (ix2 r q)
      = ∑ k : Fin 32, M (ix2 r k) * w (ix2 k q) := by
  refine (Ideal.matmul_constant_zero_apply dot_S32x32_S32x16384_S32x16384_1_0_0_1_n_n prec M w (ix2 r q)).trans ?_
  rw [← Equiv.sum_comp (contrEquiv1 dot_S32x32_S32x16384_S32x16384_1_0_0_1_n_n 32 rfl rfl).symm]
  refine Finset.sum_congr rfl fun k _ => ?_
  have hk := contrEquiv1_symm_val dot_S32x32_S32x16384_S32x16384_1_0_0_1_n_n 32 rfl rfl k
  have el : dot_S32x32_S32x16384_S32x16384_1_0_0_1_n_n.lhsIdx (ix2 r q) ((contrEquiv1 dot_S32x32_S32x16384_S32x16384_1_0_0_1_n_n 32 rfl rfl).symm k) = ix2 r k :=
    funext fun a => Fin.ext (by
      match a with
      | ⟨0, _⟩ =>
        show (dot_S32x32_S32x16384_S32x16384_1_0_0_1_n_n.lhsIdx (ix2 r q) _ 0).val = r.val
        unfold DotDims.lhsIdx
        rw [dif_neg (show ¬(0 : Fin S32x32.rank) ∈ dot_S32x32_S32x16384_S32x16384_1_0_0_1_n_n.lhsBatch by decide), dif_pos (show (0 : Fin S32x32.rank) ∈ dot_S32x32_S32x16384_S32x16384_1_0_0_1_n_n.lhsNonContracting by decide)]
        rfl
      | ⟨1, _⟩ => exact (dot_S32x32_S32x16384_S32x16384_1_0_0_1_n_n.lhsIdx_val_of_single rfl (ix2 r q) _).trans hk)
  have er : dot_S32x32_S32x16384_S32x16384_1_0_0_1_n_n.rhsIdx (ix2 r q) ((contrEquiv1 dot_S32x32_S32x16384_S32x16384_1_0_0_1_n_n 32 rfl rfl).symm k) = ix2 k q :=
    funext fun a => Fin.ext (by
      match a with
      | ⟨0, _⟩ => exact (dot_S32x32_S32x16384_S32x16384_1_0_0_1_n_n.rhsIdx_val_of_single rfl (ix2 r q) _).trans hk
      | ⟨1, _⟩ =>
        show (dot_S32x32_S32x16384_S32x16384_1_0_0_1_n_n.rhsIdx (ix2 r q) _ 1).val = q.val
        unfold DotDims.rhsIdx
        rw [dif_neg (show ¬(1 : Fin S32x16384.rank) ∈ dot_S32x32_S32x16384_S32x16384_1_0_0_1_n_n.rhsBatch by decide), dif_pos (show (1 : Fin S32x16384.rank) ∈ dot_S32x32_S32x16384_S32x16384_1_0_0_1_n_n.rhsNonContracting by decide)]
        rfl)
  rw [el, er]

/-- The sum over the 32 rows, at lane `q`. -/
theorem rowsum_apply (v : FVec Ideal S32x16384 .f32) (h : S32x16384.Reduces [0] S16384) (hφ : FKind.Formats .f32)
    (hacc : (0x00000000#32 : BitVec 32) = FKind.add.neutral .f32 hφ) (q : Fin 16384) :
    multiReduction .add [0] S16384 v 0x00000000#32 h hφ hacc (ix1 q) = ∑ r : Fin 32, v (ix2 r q) := by
  refine (Ideal.multiReduction_add_single v 0x00000000#32 h hφ hacc (ix1 q)).trans ?_
  refine Finset.sum_congr rfl fun r _ => congrArg v ?_
  funext a
  match a with
  | ⟨0, _⟩ => rfl
  | ⟨1, _⟩ => rfl

/-! ## The cell weights at an index -/

/-- The coordinate minus the cell's lower knot. -/
theorem diff_apply (v0 : FVec Ideal S16384 .f32) (v2 : FVec Ideal S16x1 .f32) (i : Fin 16) (q : Fin 16384) :
    k0_pay8 v0 v2 (ix2 i q) = v0 (ix1 q) - v2 (ix2 i (0 : Fin 1)) := by
  unfold k0_pay8 k0_pay6
  refine (subf_apply _ _ _).trans ?_
  rw [row_apply, col_apply]

/-- The hinge difference times the reciprocal width. -/
theorem char_apply (v0 : FVec Ideal S16384 .f32) (v2 v4 v6 : FVec Ideal S16x1 .f32) (i : Fin 16) (q : Fin 16384) :
    k0_pay9 (F := Ideal) v0 v2 v4 v6 (ix2 i q)
      = hinge (v0 (ix1 q)) (v2 (ix2 i (0 : Fin 1))) (v4 (ix2 i (0 : Fin 1))) * v6 (ix2 i (0 : Fin 1)) := by
  unfold k0_pay9 k0_pay6 k0_pay2 hinge
  refine (mulf_apply _ _ _).trans ?_
  rw [col_apply]
  refine congrArg (· * _) ?_
  refine (subf_apply _ _ _).trans ?_
  rw [maximumf_apply, maximumf_apply, diff_apply, subf_apply, row_apply, col_apply]
  rfl

/-- The relative position by the reciprocal width. -/
theorem rel_apply (v0 : FVec Ideal S16384 .f32) (v2 v6 : FVec Ideal S16x1 .f32) (i : Fin 16) (q : Fin 16384) :
    k0_pay10 v0 v2 v6 (ix2 i q) = (v0 (ix1 q) - v2 (ix2 i (0 : Fin 1))) * v6 (ix2 i (0 : Fin 1)) := by
  unfold k0_pay10 k0_pay2
  refine (mulf_apply _ _ _).trans ?_
  rw [diff_apply, col_apply]

/-- The x-weight toward the lower knot. -/
theorem lo_apply (v0 : FVec Ideal S16384 .f32) (v2 v4 v6 : FVec Ideal S16x1 .f32) (i : Fin 16) (q : Fin 16384) :
    k0_pay11 (F := Ideal) v0 v2 v4 v6 (ix2 i q)
      = loMul (v0 (ix1 q)) (v2 (ix2 i (0 : Fin 1))) (v4 (ix2 i (0 : Fin 1))) (v6 (ix2 i (0 : Fin 1))) := by
  unfold k0_pay11 loMul
  refine (mulf_apply _ _ _).trans ?_
  rw [char_apply, subf_apply, rel_apply]
  rfl

/-- The x-weight toward the upper knot. -/
theorem hi_apply (v0 : FVec Ideal S16384 .f32) (v2 v4 v6 : FVec Ideal S16x1 .f32) (i : Fin 16) (q : Fin 16384) :
    k0_pay12 (F := Ideal) v0 v2 v4 v6 (ix2 i q)
      = hiMul (v0 (ix1 q)) (v2 (ix2 i (0 : Fin 1))) (v4 (ix2 i (0 : Fin 1))) (v6 (ix2 i (0 : Fin 1))) := by
  unfold k0_pay12 hiMul
  refine (mulf_apply _ _ _).trans ?_
  rw [char_apply, rel_apply]

/-! ## The stored value at a lane -/

/-- The stored value from the y-row, the upper y-knots, the y-reciprocals, the matrix, the two x-weight blocks and the
    coordinate-minus-lower-y-knot block: the stacked contraction, the y-weights formed inside. -/
theorem pay1_apply (v11 v13 : FVec Ideal S16x1 .f32) (v15 : FVec Ideal S32x32 .f32) (v17 : FVec Ideal S1x16384 .f32)
    (v35 v36 v39 : FVec Ideal S16x16384 .f32) (q : Fin 16384) :
    k0_pay1 (F := Ideal) v11 v13 v15 v17 v35 v36 v39 (ix1 q)
      = stacked (fun r k => v15 (ix2 r k)) (fun i => v35 (ix2 i q)) (fun i => v36 (ix2 i q))
          (fun j => (max (v39 (ix2 j q)) zeroW - max (v17 (ix2 (0 : Fin 1) q) - v11 (ix2 j (0 : Fin 1))) zeroW)
                      * v13 (ix2 j (0 : Fin 1)) * (oneW - v39 (ix2 j q) * v13 (ix2 j (0 : Fin 1))))
          (fun j => (max (v39 (ix2 j q)) zeroW - max (v17 (ix2 (0 : Fin 1) q) - v11 (ix2 j (0 : Fin 1))) zeroW)
                      * v13 (ix2 j (0 : Fin 1)) * (v39 (ix2 j q) * v13 (ix2 j (0 : Fin 1)))) := by
  unfold k0_pay1 stacked
  refine (rowsum_apply _ _ _ _ q).trans ?_
  refine Finset.sum_congr rfl fun r _ => ?_
  refine (mulf_apply _ _ _).trans ?_
  rw [matmul_apply32, stack_apply]
  refine congrArg₂ (· * ·) (Finset.sum_congr rfl fun k _ => by rw [stack_apply]) ?_
  refine congrArg₂ (fun f g => stack f g r) (funext fun j => ?_) (funext fun j => ?_)
  · simp only [mulf_apply, subf_apply, maximumf_apply, broadcast_apply, broadcastTo_1b_ab_apply, broadcastTo_a1_ab_apply]
    rfl
  · simp only [mulf_apply, subf_apply, maximumf_apply, broadcast_apply, broadcastTo_1b_ab_apply, broadcastTo_a1_ab_apply]
    rfl

/-- WHAT ONE GRID STEP STORES, at lane `q`, from its nine input blocks: the stacked contraction of the matrix block with
    the hinge weights of the lane's two coordinates against the knot and reciprocal columns. -/
theorem out_apply (x0 x1 : Vec Ideal S16384 .f32) (x2 x3 x4 x5 x6 x7 : Vec Ideal S16x1 .f32) (x8 : Vec Ideal S32x32 .f32)
    (q : Fin 16384) :
    out0_9 (F := Ideal) x0 x1 x2 x3 x4 x5 x6 x7 x8 (ix1 q)
      = stacked (fun r k => x8 (ix2 r k))
          (fun i => loMul (x0 (ix1 q)) (x2 (ix2 i (0 : Fin 1))) (x3 (ix2 i (0 : Fin 1))) (x4 (ix2 i (0 : Fin 1))))
          (fun i => hiMul (x0 (ix1 q)) (x2 (ix2 i (0 : Fin 1))) (x3 (ix2 i (0 : Fin 1))) (x4 (ix2 i (0 : Fin 1))))
          (fun j => loMul (x1 (ix1 q)) (x5 (ix2 j (0 : Fin 1))) (x6 (ix2 j (0 : Fin 1))) (x7 (ix2 j (0 : Fin 1))))
          (fun j => hiMul (x1 (ix1 q)) (x5 (ix2 j (0 : Fin 1))) (x6 (ix2 j (0 : Fin 1))) (x7 (ix2 j (0 : Fin 1)))) := by
  unfold out0_9
  rw [View.canon_unit_zero hz1]
  simp only [View.ld_unit_zero (S := S16384) hz1, View.ld_unit_zero (S := S16x1) hz2, View.ld_unit_zero (S := S32x32) hz2]
  rw [pay1_apply]
  have hy : ∀ j : Fin 16, k0_pay13 (F := Ideal) x1 x5 (ix2 j q) = x1 (ix1 q) - x5 (ix2 j (0 : Fin 1)) := fun j => by
    unfold k0_pay13 k0_pay7
    refine (subf_apply _ _ _).trans ?_
    rw [row_apply, col_apply]
  have hrow : k0_pay7 (F := Ideal) x1 (ix2 (0 : Fin 1) q) = x1 (ix1 q) := by
    unfold k0_pay7
    exact shapeCast_a_1a_apply x1 _ 0 q
  have hY1 : ∀ j : Fin 16, k0_pay3 (F := Ideal) x6 (ix2 j (0 : Fin 1)) = x6 (ix2 j (0 : Fin 1)) := fun j => by
    unfold k0_pay3; rw [shapeCast_self]
  have hR : ∀ j : Fin 16, k0_pay4 (F := Ideal) x7 (ix2 j (0 : Fin 1)) = x7 (ix2 j (0 : Fin 1)) := fun j => by
    unfold k0_pay4; rw [shapeCast_self]
  have hM : ∀ (r k : Fin 32), k0_pay5 (F := Ideal) x8 (ix2 r k) = x8 (ix2 r k) := fun r k => by
    unfold k0_pay5; rw [shapeCast_self]
  simp only [hy, hrow, hY1, hR, hM, lo_apply, hi_apply]
  rfl

/-- The same at any index of the block. -/
theorem out_at (x0 x1 : Vec Ideal S16384 .f32) (x2 x3 x4 x5 x6 x7 : Vec Ideal S16x1 .f32) (x8 : Vec Ideal S32x32 .f32)
    (y : S16384.Idx) :
    out0_9 (F := Ideal) x0 x1 x2 x3 x4 x5 x6 x7 x8 y
      = stacked (fun r k => x8 (ix2 r k))
          (fun i => loMul (x0 y) (x2 (ix2 i (0 : Fin 1))) (x3 (ix2 i (0 : Fin 1))) (x4 (ix2 i (0 : Fin 1))))
          (fun i => hiMul (x0 y) (x2 (ix2 i (0 : Fin 1))) (x3 (ix2 i (0 : Fin 1))) (x4 (ix2 i (0 : Fin 1))))
          (fun j => loMul (x1 y) (x5 (ix2 j (0 : Fin 1))) (x6 (ix2 j (0 : Fin 1))) (x7 (ix2 j (0 : Fin 1))))
          (fun j => hiMul (x1 y) (x5 (ix2 j (0 : Fin 1))) (x6 (ix2 j (0 : Fin 1))) (x7 (ix2 j (0 : Fin 1)))) := by
  obtain ⟨q, rfl⟩ : ∃ q : Fin 16384, y = ix1 q := ⟨y 0, eq_ix1 y⟩
  exact out_apply x0 x1 x2 x3 x4 x5 x6 x7 x8 q

end Cert.KernelIdeal.Point

end
-- ==== Proof.Operands.lean ====
/-
  The small operand arrays the program prepares before the grid runs, each read at an index, at the extended reals.

  From the 17 knots of an axis: the column of the sixteen cells' LOWER knots (`knots[0:16]` as a 16 × 1 column), the column of
  their UPPER knots (`knots[1:17]`), and the column of reciprocal widths `1 / (upper - lower)`. From the 17 × 17 grid
  values: the 32 × 32 block matrix whose row picks a cell column and a y-corner and whose column picks a cell row and an
  x-corner — two transposed corner slices side by side, two such strips one above the other (`Interp.blockMat`).
-/
import proofs.«126998_j44014824849725_2_alg».proof.Proof.Gen.KernelIdeal.Frame
import proofs.«126998_j44014824849725_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx Cert.Interp

/-! ## Reading lemmas over arbitrary arrays -/

/-- Sixteen consecutive knots from offset `o`, laid as a column: row `i` holds knot `o + i`. -/
theorem knotCol_apply (xp : S17.Idx → EReal) (o : Nat) (h : S17.Slices ![o] S16) (hc : S16.ShapeCasts S16x1)
    (i : Fin 16) (k : Fin 17) (hk : k.val = o + i.val) :
    shapeCast S16x1 (extractStridedSlice S16 ![o] xp h) hc (ix2 i (0 : Fin 1)) = xp (ix1 k) := by
  refine (shapeCast_apply _ hc (ix2 i (0 : Fin 1)) (ix1 i) ?_).trans ?_
  · rw [Shape.rowMajor_val_two, Shape.rowMajor_val_one]
    show i.val = i.val * 1 + 0
    omega
  · exact extractStridedSlice_apply ![o] xp h (ix1 i) (ix1 k) fun a => by
      match a with
      | ⟨0, _⟩ => exact hk

/-- A 16 × 16 corner of the grid values from offsets `(o0, o1)`. -/
theorem corner_apply (z : S17x17.Idx → EReal) (o0 o1 : Nat) (h : S17x17.Slices ![o0, o1] S16x16) (a b : Fin 16)
    (a' b' : Fin 17) (ha : a'.val = o0 + a.val) (hb : b'.val = o1 + b.val) :
    extractStridedSlice S16x16 ![o0, o1] z h (ix2 a b) = z (ix2 a' b') :=
  extractStridedSlice_apply _ z h (ix2 a b) (ix2 a' b') fun ax => by
    match ax with
    | ⟨0, _⟩ => exact ha
    | ⟨1, _⟩ => exact hb

/-- Two 16 × 16 blocks side by side: column `k` of row `j` is the first block's or the second's. -/
theorem sideBySide_apply (u w : S16x16.Idx → EReal) (h : Shape.Concatenates [S16x16, S16x16] S16x32 1)
    (j : Fin 16) (k : Fin 32) :
    concatenate S16x32 1 [⟨S16x16, u⟩, ⟨S16x16, w⟩] h (ix2 j k)
      = stack (fun i => u (ix2 j i)) (fun i => w (ix2 j i)) k := by
  unfold stack
  by_cases hk : k.val < 16
  · rw [dif_pos hk]
    refine concatenate_pair_apply_left (1 : Fin 2) u w h (ix2 j k) rfl (ix2 j ⟨k.val, hk⟩) fun b => ?_
    match b with
    | ⟨0, _⟩ => rfl
    | ⟨1, _⟩ => rfl
  · rw [dif_neg hk]
    refine concatenate_pair_apply_right (1 : Fin 2) u w h (ix2 j k) rfl rfl (ix2 j ⟨k.val - 16, by have := k.isLt; omega⟩) (fun b hb => ?_) ?_
    · match b with
      | ⟨0, _⟩ => rfl
      | ⟨1, _⟩ => exact absurd rfl hb
    · show k.val - 16 + 16 = k.val
      omega

/-- Two 16 × 32 strips one above the other: row `r` is the first strip's or the second's. -/
theorem oneAbove_apply (u w : S16x32.Idx → EReal) (h : Shape.Concatenates [S16x32, S16x32] S32x32 0)
    (r k : Fin 32) :
    concatenate S32x32 0 [⟨S16x32, u⟩, ⟨S16x32, w⟩] h (ix2 r k)
      = stack (fun j => u (ix2 j k)) (fun j => w (ix2 j k)) r := by
  unfold stack
  by_cases hr : r.val < 16
  · rw [dif_pos hr]
    refine concatenate_pair_apply_left (0 : Fin 2) u w h (ix2 r k) rfl (ix2 ⟨r.val, hr⟩ k) fun b => ?_
    match b with
    | ⟨0, _⟩ => rfl
    | ⟨1, _⟩ => rfl
  · rw [dif_neg hr]
    refine concatenate_pair_apply_right (0 : Fin 2) u w h (ix2 r k) rfl rfl (ix2 ⟨r.val - 16, by have := r.isLt; omega⟩ k) (fun b hb => ?_) ?_
    · match b with
      | ⟨0, _⟩ => exact absurd rfl hb
      | ⟨1, _⟩ => rfl
    · show r.val - 16 + 16 = r.val
      omega

/-- The block matrix built from the four transposed corners is `Interp.blockMat` of the grid values. -/
theorem blockMat_apply (z : S17x17.Idx → EReal)
    (h00 : S17x17.Slices ![0, 0] S16x16) (h10 : S17x17.Slices ![1, 0] S16x16)
    (h01 : S17x17.Slices ![0, 1] S16x16) (h11 : S17x17.Slices ![1, 1] S16x16)
    (ht : S16x16.Transposes [1, 0] S16x16) (hs : Shape.Concatenates [S16x16, S16x16] S16x32 1)
    (ha : Shape.Concatenates [S16x32, S16x32] S32x32 0) (r k : Fin 32) :
    concatenate S32x32 0
        [⟨S16x32, concatenate S16x32 1
            [⟨S16x16, transpose S16x16 [1, 0] (extractStridedSlice S16x16 ![0, 0] z h00) ht⟩,
             ⟨S16x16, transpose S16x16 [1, 0] (extractStridedSlice S16x16 ![1, 0] z h10) ht⟩] hs⟩,
         ⟨S16x32, concatenate S16x32 1
            [⟨S16x16, transpose S16x16 [1, 0] (extractStridedSlice S16x16 ![0, 1] z h01) ht⟩,
             ⟨S16x16, transpose S16x16 [1, 0] (extractStridedSlice S16x16 ![1, 1] z h11) ht⟩] hs⟩] ha (ix2 r k)
      = blockMat (fun a b => z (ix2 a b)) r k := by
  rw [oneAbove_apply]
  unfold blockMat
  refine congrArg₂ (fun f g => stack f g r) (funext fun j => ?_) (funext fun j => ?_)
  · rw [sideBySide_apply]
    refine congrArg₂ (fun f g => stack f g k) (funext fun i => ?_) (funext fun i => ?_)
    · rw [transpose_ix2_apply]
      exact corner_apply z 0 0 h00 i j i.castSucc j.castSucc (by simp) (by simp)
    · rw [transpose_ix2_apply]
      exact corner_apply z 1 0 h10 i j i.succ j.castSucc (by simp; omega) (by simp)
  · rw [sideBySide_apply]
    refine congrArg₂ (fun f g => stack f g k) (funext fun i => ?_) (funext fun i => ?_)
    · rw [transpose_ix2_apply]
      exact corner_apply z 0 1 h01 i j i.castSucc j.succ (by simp) (by simp; omega)
    · rw [transpose_ix2_apply]
      exact corner_apply z 1 1 h11 i j i.succ j.succ (by simp; omega) (by simp; omega)

/-! ## The operand arrays as the grid finds them -/

variable (m : (ℓ : Loc nD τ sig) → Buf (Elt Ideal) ℓ)

/-- The x-knots, the y-knots and the grid values as launched. -/
abbrev xKnots (c : Dev nD) : S17.Idx → EReal := m ((c : Thread nD τ).loc main_arg2)
abbrev yKnots (c : Dev nD) : S17.Idx → EReal := m ((c : Thread nD τ).loc main_arg3)
abbrev gridVals (c : Dev nD) : S17x17.Idx → EReal := m ((c : Thread nD τ).loc main_arg4)

theorem lowerX_apply (c : Dev nD) (i : Fin 16) :
    (V m c main_v1 : S16x1.Idx → EReal) (ix2 i (0 : Fin 1)) = xKnots m c (ix1 i.castSucc) := by
  have e : (V m c main_v1 : S16x1.Idx → EReal)
      = shapeCast S16x1 (extractStridedSlice S16 ![0] (xKnots m c) slices_S17_S16_0) shapeCasts_S16_S16x1 := by
    dsimp only [Gen.V, Gen.hostOps0]; after_results; rfl
  rw [e]
  exact knotCol_apply _ 0 _ _ i i.castSucc (by simp)

theorem upperX_apply (c : Dev nD) (i : Fin 16) :
    (V m c main_v3 : S16x1.Idx → EReal) (ix2 i (0 : Fin 1)) = xKnots m c (ix1 i.succ) := by
  have e : (V m c main_v3 : S16x1.Idx → EReal)
      = shapeCast S16x1 (extractStridedSlice S16 ![1] (xKnots m c) slices_S17_S16_1) shapeCasts_S16_S16x1 := by
    dsimp only [Gen.V, Gen.hostOps0]; after_results; rfl
  rw [e]
  exact knotCol_apply _ 1 _ _ i i.succ (by simp; omega)

theorem recipX_apply (c : Dev nD) (i : Fin 16) :
    (V m c main_v6 : S16x1.Idx → EReal) (ix2 i (0 : Fin 1))
      = Ideal.div oneW (xKnots m c (ix1 i.succ) - xKnots m c (ix1 i.castSucc)) := by
  have e : (V m c main_v6 : S16x1.Idx → EReal)
      = Host.divf (F := Ideal) (broadcastInDim S16x1 ![] bcast_S_S16x1 (constant (F := Ideal) S_ .f32 0x3F800000#32))
          (subf (shapeCast S16x1 (extractStridedSlice S16 ![1] (xKnots m c) slices_S17_S16_1) shapeCasts_S16_S16x1)
            (shapeCast S16x1 (extractStridedSlice S16 ![0] (xKnots m c) slices_S17_S16_0) shapeCasts_S16_S16x1)) := by
    dsimp only [Gen.V, Gen.hostOps0]; after_results; rfl
  rw [e]
  show Ideal.div oneW (shapeCast S16x1 _ _ (ix2 i (0 : Fin 1)) - shapeCast S16x1 _ _ (ix2 i (0 : Fin 1))) = _
  rw [knotCol_apply _ 1 _ _ i i.succ (by simp; omega), knotCol_apply _ 0 _ _ i i.castSucc (by simp)]

theorem lowerY_apply (c : Dev nD) (j : Fin 16) :
    (V m c main_v8 : S16x1.Idx → EReal) (ix2 j (0 : Fin 1)) = yKnots m c (ix1 j.castSucc) := by
  have e : (V m c main_v8 : S16x1.Idx → EReal)
      = shapeCast S16x1 (extractStridedSlice S16 ![0] (yKnots m c) slices_S17_S16_0) shapeCasts_S16_S16x1 := by
    dsimp only [Gen.V, Gen.hostOps0]; after_results; rfl
  rw [e]
  exact knotCol_apply _ 0 _ _ j j.castSucc (by simp)

theorem upperY_apply (c : Dev nD) (j : Fin 16) :
    (V m c main_v10 : S16x1.Idx → EReal) (ix2 j (0 : Fin 1)) = yKnots m c (ix1 j.succ) := by
  have e : (V m c main_v10 : S16x1.Idx → EReal)
      = shapeCast S16x1 (extractStridedSlice S16 ![1] (yKnots m c) slices_S17_S16_1) shapeCasts_S16_S16x1 := by
    dsimp only [Gen.V, Gen.hostOps0]; after_results; rfl
  rw [e]
  exact knotCol_apply _ 1 _ _ j j.succ (by simp; omega)

theorem recipY_apply (c : Dev nD) (j : Fin 16) :
    (V m c main_v13 : S16x1.Idx → EReal) (ix2 j (0 : Fin 1))
      = Ideal.div oneW (yKnots m c (ix1 j.succ) - yKnots m c (ix1 j.castSucc)) := by
  have e : (V m c main_v13 : S16x1.Idx → EReal)
      = Host.divf (F := Ideal) (broadcastInDim S16x1 ![] bcast_S_S16x1 (constant (F := Ideal) S_ .f32 0x3F800000#32))
          (subf (shapeCast S16x1 (extractStridedSlice S16 ![1] (yKnots m c) slices_S17_S16_1) shapeCasts_S16_S16x1)
            (shapeCast S16x1 (extractStridedSlice S16 ![0] (yKnots m c) slices_S17_S16_0) shapeCasts_S16_S16x1)) := by
    dsimp only [Gen.V, Gen.hostOps0]; after_results; rfl
  rw [e]
  show Ideal.div oneW (shapeCast S16x1 _ _ (ix2 j (0 : Fin 1)) - shapeCast S16x1 _ _ (ix2 j (0 : Fin 1))) = _
  rw [knotCol_apply _ 1 _ _ j j.succ (by simp; omega), knotCol_apply _ 0 _ _ j j.castSucc (by simp)]

theorem matrix_apply (c : Dev nD) (r k : Fin 32) :
    (V m c main_v24 : S32x32.Idx → EReal) (ix2 r k) = blockMat (fun a b => gridVals m c (ix2 a b)) r k := by
  have e : (V m c main_v24 : S32x32.Idx → EReal)
      = concatenate S32x32 0
        [⟨S16x32, concatenate S16x32 1
            [⟨S16x16, transpose S16x16 [1, 0] (extractStridedSlice S16x16 ![0, 0] (gridVals m c) slices_S17x17_S16x16_0_0) transposes_S16x16_S16x16_1_0⟩,
             ⟨S16x16, transpose S16x16 [1, 0] (extractStridedSlice S16x16 ![1, 0] (gridVals m c) slices_S17x17_S16x16_1_0) transposes_S16x16_S16x16_1_0⟩] concatenates_S16x16_S16x16_S16x32_d1⟩,
         ⟨S16x32, concatenate S16x32 1
            [⟨S16x16, transpose S16x16 [1, 0] (extractStridedSlice S16x16 ![0, 1] (gridVals m c) slices_S17x17_S16x16_0_1) transposes_S16x16_S16x16_1_0⟩,
             ⟨S16x16, transpose S16x16 [1, 0] (extractStridedSlice S16x16 ![1, 1] (gridVals m c) slices_S17x17_S16x16_1_1) transposes_S16x16_S16x16_1_0⟩] concatenates_S16x16_S16x16_S16x32_d1⟩]
        concatenates_S16x32_S16x32_S32x32_d0 := by
    dsimp only [Gen.V, Gen.hostOps0]; after_results
  rw [e]
  exact blockMat_apply _ _ _ _ _ _ _ _ r k

end Cert.KernelIdeal.Operands

end
-- ==== Proof.Whole.lean ====
/-
  From what each grid step writes back to the whole result array.

  Step `t` reads queries `16384·t … 16384·t + 16383` of `x` and `y` and the whole of each small operand array, and writes the
  same range of the result. At lane `q` its value is the stacked contraction of the block matrix with the hinge weights
  of query `16384·t + q`, the reciprocal widths multiplying; where every cell width is nonzero that is the interpolant
  `Interp.interpolant` at that query, the widths dividing. The 256 ranges cover the array (query `p` lies in range
  `p / 16384`), so after the run the result array IS the interpolant of the five arguments.
-/
import proofs.«126998_j44014824849725_2_alg».proof.Proof.Gen.KernelIdeal.Value
import proofs.«126998_j44014824849725_2_alg».proof.Proof.KernelPoint
import proofs.«126998_j44014824849725_2_alg».proof.Proof.Operands
import proofs.«126998_j44014824849725_2_alg».proof.Proof.Spec
import Idealize.ShloMosaic.Lib.Pipeline.Value

noncomputable section

namespace Cert.KernelIdeal.Whole

open Cert.KernelIdeal Cert.KernelIdeal.Gen Cert.KernelIdeal.Value Cert.KernelIdeal.Operands Cert.KernelIdeal.Point
open Idealize.ShloMosaic Idealize.ShloMosaic.TcCoe Idealize.SL.Sem Idealize.ShloMosaic.ValueIdx Cert.Interp
open Idealize.ShloMosaic.Pipeline (Dat)

variable (m : (ℓ : Loc nD τ sig) → Buf (Elt Ideal) ℓ) (ρ : Dev nD → PrngReg)

/-- The query coordinates as launched. -/
abbrev xs (c : Dev nD) : S4194304.Idx → EReal := m ((c : Thread nD τ).loc main_arg0)
abbrev ys (c : Dev nD) : S4194304.Idx → EReal := m ((c : Thread nD τ).loc main_arg1)

/-- THE RESULT: the interpolant of the five argument arrays. -/
abbrev result (c : Dev nD) : S4194304.Idx → EReal :=
  interpolant (xs m c) (ys m c) (xKnots m c) (yKnots m c) (gridVals m c)

/-- The printed index maps, decided once over the 256 grid points: the two query windows and the result window are at
    block `t`; every small operand window stays at block 0. -/
theorem idx_facts : ∀ t : Fin cfg0.N,
    win0_0.index t (0 : Fin 1) = win0_9.index t (0 : Fin 1) ∧ win0_1.index t (0 : Fin 1) = win0_9.index t (0 : Fin 1)
    ∧ win0_9.index t (0 : Fin 1) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each input block, read where the result's block says -/

/-- The x-block at a lane is `x` at the result block's query. -/
theorem xblk_at (c : Dev nD) (t : Fin cfg0.N) (y : S16384.Idx) :
    (iblk m c 0 t : Vec Ideal S16384 .f32) y = xs m c (((cfg0.win 9).blk t).view.emb y) := by
  show V m c main_arg0 (((cfg0.win 0).blk t).view.emb y) = _
  rw [V_main_arg0]
  refine congrArg (xs m c) (funext fun a => Fin.ext ?_)
  match a with
  | ⟨0, _⟩ =>
    show win0_0.index t (0 : Fin 1) * 16384 + 1 * (y 0).val = win0_9.index t (0 : Fin 1) * 16384 + 1 * (y 0).val
    rw [(idx_facts t).1]

/-- The y-block at a lane is `y` at the result block's query. -/
theorem yblk_at (c : Dev nD) (t : Fin cfg0.N) (y : S16384.Idx) :
    (iblk m c 1 t : Vec Ideal S16384 .f32) y = ys m c (((cfg0.win 9).blk t).view.emb y) := by
  show V m c main_arg1 (((cfg0.win 1).blk t).view.emb y) = _
  rw [V_main_arg1]
  refine congrArg (ys m c) (funext fun a => Fin.ext ?_)
  match a with
  | ⟨0, _⟩ =>
    show win0_1.index t (0 : Fin 1) * 16384 + 1 * (y 0).val = win0_9.index t (0 : Fin 1) * 16384 + 1 * (y 0).val
    rw [(idx_facts t).2.1]

theorem lowerX_blk (c : Dev nD) (t : Fin cfg0.N) (i : Fin 16) :
    (iblk m c 2 t : Vec Ideal S16x1 .f32) (ix2 i (0 : Fin 1)) = xKnots m c (ix1 i.castSucc) := by
  show (V m c main_v1 : S16x1.Idx → EReal) (((cfg0.win 2).blk t).view.emb (ix2 i (0 : Fin 1))) = _
  refine Eq.trans (congrArg (V m c main_v1 : S16x1.Idx → EReal) (funext fun a => Fin.ext ?_)) (lowerX_apply m c i)
  obtain ⟨-, -, -, e0, e1, -⟩ := idx_facts t
  match a with
  | ⟨0, _⟩ => show win0_2.index t (0 : Fin 2) * 16 + 1 * i.val = i.val; rw [e0]; omega
  | ⟨1, _⟩ => show win0_2.index t (1 : Fin 2) * 1 + 1 * 0 = 0; rw [e1]

theorem upperX_blk (c : Dev nD) (t : Fin cfg0.N) (i : Fin 16) :
    (iblk m c 3 t : Vec Ideal S16x1 .f32) (ix2 i (0 : Fin 1)) = xKnots m c (ix1 i.succ) := by
  show (V m c main_v3 : S16x1.Idx → EReal) (((cfg0.win 3).blk t).view.emb (ix2 i (0 : Fin 1))) = _
  refine Eq.trans (congrArg (V m c main_v3 : S16x1.Idx → EReal) (funext fun a => Fin.ext ?_)) (upperX_apply m c i)
  obtain ⟨-, -, -, -, -, e0, e1, -⟩ := idx_facts t
  match a with
  | ⟨0, _⟩ => show win0_3.index t (0 : Fin 2) * 16 + 1 * i.val = i.val; rw [e0]; omega
  | ⟨1, _⟩ => show win0_3.index t (1 : Fin 2) * 1 + 1 * 0 = 0; rw [e1]

theorem recipX_blk (c : Dev nD) (t : Fin cfg0.N) (i : Fin 16) :
    (iblk m c 4 t : Vec Ideal S16x1 .f32) (ix2 i (0 : Fin 1))
      = Ideal.div oneW (xKnots m c (ix1 i.succ) - xKnots m c (ix1 i.castSucc)) := by
  show (V m c main_v6 : S16x1.Idx → EReal) (((cfg0.win 4).blk t).view.emb (ix2 i (0 : Fin 1))) = _
  refine Eq.trans (congrArg (V m c main_v6 : S16x1.Idx → EReal) (funext fun a => Fin.ext ?_)) (recipX_apply m c i)
  obtain ⟨-, -, -, -, -, -, -, e0, e1, -⟩ := idx_facts t
  match a with
  | ⟨0, _⟩ => show win0_4.index t (0 : Fin 2) * 16 + 1 * i.val = i.val; rw [e0]; omega
  | ⟨1, _⟩ => show win0_4.index t (1 : Fin 2) * 1 + 1 * 0 = 0; rw [e1]

theorem lowerY_blk (c : Dev nD) (t : Fin cfg0.N) (j : Fin 16) :
    (iblk m c 5 t : Vec Ideal S16x1 .f32) (ix2 j (0 : Fin 1)) = yKnots m c (ix1 j.castSucc) := by
  show (V m c main_v8 : S16x1.Idx → EReal) (((cfg0.win 5).blk t).view.emb (ix2 j (0 : Fin 1))) = _
  refine Eq.trans (congrArg (V m c main_v8 : S16x1.Idx → EReal) (funext fun a => Fin.ext ?_)) (lowerY_apply m c j)
  obtain ⟨-, -, -, -, -, -, -, -, -, e0, e1, -⟩ := idx_facts t
  match a with
  | ⟨0, _⟩ => show win0_5.index t (0 : Fin 2) * 16 + 1 * j.val = j.val; rw [e0]; omega
  | ⟨1, _⟩ => show win0_5.index t (1 : Fin 2) * 1 + 1 * 0 = 0; rw [e1]

theorem upperY_blk (c : Dev nD) (t : Fin cfg0.N) (j : Fin 16) :
    (iblk m c 6 t : Vec Ideal S16x1 .f32) (ix2 j (0 : Fin 1)) = yKnots m c (ix1 j.succ) := by
  show (V m c main_v10 : S16x1.Idx → EReal) (((cfg0.win 6).blk t).view.emb (ix2 j (0 : Fin 1))) = _
  refine Eq.trans (congrArg (V m c main_v10 : S16x1.Idx → EReal) (funext fun a => Fin.ext ?_)) (upperY_apply m c j)
  obtain ⟨-, -, -, -, -, -, -, -, -, -, -, e0, e1, -⟩ := idx_facts t
  match a with
  | ⟨0, _⟩ => show win0_6.index t (0 : Fin 2) * 16 + 1 * j.val = j.val; rw [e0]; omega
  | ⟨1, _⟩ => show win0_6.index t (1 : Fin 2) * 1 + 1 * 0 = 0; rw [e1]

theorem recipY_blk (c : Dev nD) (t : Fin cfg0.N) (j : Fin 16) :
    (iblk m c 7 t : Vec Ideal S16x1 .f32) (ix2 j (0 : Fin 1))
      = Ideal.div oneW (yKnots m c (ix1 j.succ) - yKnots m c (ix1 j.castSucc)) := by
  show (V m c main_v13 : S16x1.Idx → EReal) (((cfg0.win 7).blk t).view.emb (ix2 j (0 : Fin 1))) = _
  refine Eq.trans (congrArg (V m c main_v13 : S16x1.Idx → EReal) (funext fun a => Fin.ext ?_)) (recipY_apply m c j)
  obtain ⟨-, -, -, -, -, -, -, -, -, -, -, -, -, e0, e1, -⟩ := idx_facts t
  match a with
  | ⟨0, _⟩ => show win0_7.index t (0 : Fin 2) * 16 + 1 * j.val = j.val; rw [e0]; omega
  | ⟨1, _⟩ => show win0_7.index t (1 : Fin 2) * 1 + 1 * 0 = 0; rw [e1]

theorem matrix_blk (c : Dev nD) (t : Fin cfg0.N) (r k : Fin 32) :
    (iblk m c 8 t : Vec Ideal S32x32 .f32) (ix2 r k) = blockMat (fun a b => gridVals m c (ix2 a b)) r k := by
  show (V m c main_v24 : S32x32.Idx → EReal) (((cfg0.win 8).blk t).view.emb (ix2 r k)) = _
  refine Eq.trans (congrArg (V m c main_v24 : S32x32.Idx → EReal) (funext fun a => Fin.ext ?_)) (matrix_apply m c r k)
  obtain ⟨-, -, -, -, -, -, -, -, -, -, -, -, -, -, -, e0, e1⟩ := idx_facts t
  match a with
  | ⟨0, _⟩ => show win0_8.index t (0 : Fin 2) * 32 + 1 * r.val = r.val; rw [e0]; omega
  | ⟨1, _⟩ => show win0_8.index t (1 : Fin 2) * 32 + 1 * k.val = k.val; rw [e1]; omega

/-! ## What a step writes back, the cover, the array -/

/-- WHAT STEP `t` WRITES BACK is block `t` of the interpolant, where every cell width is nonzero. -/
theorem flushed_eq (c : Dev nD)
    (hx : ∀ i : Fin 16, xKnots m c (ix1 i.succ) - xKnots m c (ix1 i.castSucc) ≠ 0)
    (hy : ∀ j : Fin 16, yKnots m c (ix1 j.succ) - yKnots m c (ix1 j.castSucc) ≠ 0) (t : Fin cfg0.N) :
    (dats m 0 c).flushed 9 t = ((cfg0.win 9).blk t).view.read (Elt Ideal) (result m c) := by
  rw [flushed9]
  funext y
  show out0_9 (iblk m c 0 t) (iblk m c 1 t) (iblk m c 2 t) (iblk m c 3 t) (iblk m c 4 t) (iblk m c 5 t) (iblk m c 6 t)
      (iblk m c 7 t) (iblk m c 8 t) y = result m c (((cfg0.win 9).blk t).view.emb y)
  refine (out_at (iblk m c 0 t) (iblk m c 1 t) (iblk m c 2 t) (iblk m c 3 t) (iblk m c 4 t) (iblk m c 5 t)
    (iblk m c 6 t) (iblk m c 7 t) (iblk m c 8 t) y).trans ?_
  simp only [xblk_at m c t y, yblk_at m c t y, lowerX_blk m c t, upperX_blk m c t, recipX_blk m c t, lowerY_blk m c t,
    upperY_blk m c t, recipY_blk m c t, matrix_blk m c t]
  exact stacked_recip_eq_cells _ _ (fun k => xKnots m c (ix1 k)) (fun k => yKnots m c (ix1 k))
    (fun a b => gridVals m c (ix2 a b)) hx hy

/-- An index of the result array is in step `t`'s block iff it is in the step's range of queries. -/
theorem mem_blk (t : Fin cfg0.N) (i : S4194304.Idx) :
    i ∈ ((cfg0.win 9).blk t).view.set ↔ ∀ a : Fin 1, win0_9.index t a * S16384.size a ≤ (i a).val
      ∧ (i a).val < win0_9.index t a * S16384.size a + S16384.size a := by
  show i ∈ ((View.whole main_v25).slice (win0_9.rect t)).set ↔ _
  rw [View.set_slice_whole, Rect.mem_set_unit]
  exact Iff.rfl

/-- Every query is in some step's block: query `p` in step `p / 16384`. -/
theorem cover (i : S4194304.Idx) :
    ∃ t : Fin cfg0.N, (cfg0.win 9).flush t = true ∧ i ∈ ((cfg0.win 9).blk t).view.set := by
  have hi : (i 0).val < 4194304 := (i 0).isLt
  have hN : cfg0.N = 256 := N_0
  refine ⟨⟨(i 0).val / 16384, by rw [hN]; omega⟩, flush0_9 _, ?_⟩
  rw [mem_blk]
  intro a
  match a with
  | ⟨0, _⟩ =>
    show win0_9.index _ (0 : Fin 1) * 16384 ≤ (i 0).val ∧ (i 0).val < win0_9.index _ (0 : Fin 1) * 16384 + 16384
    rw [(idx_facts _).2.2.1]
    show (i 0).val / 16384 * 16384 ≤ (i 0).val ∧ (i 0).val < (i 0).val / 16384 * 16384 + 16384
    omega

/-- THE RESULT ARRAY after the run is the interpolant of the arguments. -/
theorem final (c : Dev nD)
    (hx : ∀ i : Fin 16, xKnots m c (ix1 i.succ) - xKnots m c (ix1 i.castSucc) ≠ 0)
    (hy : ∀ j : Fin 16, yKnots m c (ix1 j.succ) - yKnots m c (ix1 j.castSucc) ≠ 0) :
    (dats m 0 c).arrAt 9 cfg0.N = result m c :=
  (dats m 0 c).arrAt_eq_of_cover 9 (result m c) (fun t _ => flushed_eq m c hx hy t) cover

/-- The run, read: the result array at the interpolant, the arguments unchanged. -/
theorem run
    (hx : ∀ (c : Dev nD) (i : Fin 16), xKnots m c (ix1 i.succ) - xKnots m c (ix1 i.castSucc) ≠ 0)
    (hy : ∀ (c : Dev nD) (j : Fin 16), yKnots m c (ix1 j.succ) - yKnots m c (ix1 j.castSucc) ≠ 0) :
    θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hx c) (hy c)), (h c).2⟩) (run_blocks m ρ)

end Cert.KernelIdeal.Whole

end
-- ==== Proof.RefValue.lean ====
/-
  The reference program's result, index by index, is the interpolant `Interp.interpolant` of its five arguments.

  At query `p` and cell `i` the reference forms the hinge difference of `x p` against the cell's two knots, divides it and
  the offset `x p - lower` by the cell's width, and multiplies into the two weights `loDiv`, `hiDiv`; likewise on the
  y-axis. It contracts the x-weights with the four 16 × 16 corners of the grid values, adds the contractions in pairs,
  multiplies by the y-weights, adds the two products and sums over the sixteen cell columns from zero.
  Every stage is read at an index by the generated per-operation lemmas; what is written here is the index arithmetic
  of the leaves (a broadcast coordinate, a knot, a width, a corner entry) and the assembly.
-/
import proofs.«126998_j44014824849725_2_alg».proof.Proof.Gen.ReferenceIdeal.Read
import proofs.«126998_j44014824849725_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Interp

variable (x0 x1 : (⟨S4194304, .f32⟩ : BufTy).Contents (Elt Ideal)) (x2 x3 : (⟨S17, .f32⟩ : BufTy).Contents (Elt Ideal))
  (x4 : (⟨S17x17, .f32⟩ : BufTy).Contents (Elt Ideal))

/-! ## The leaves -/

/-- A query coordinate repeated over the sixteen cells. -/
theorem coord_apply (x : (⟨S4194304, .f32⟩ : BufTy).Contents (Elt Ideal)) (p : Fin 4194304) (i : Fin 16) :
    val_main_v9 (F := Ideal) x (ix2 p i) = x (ix1 p) := by
  rw [val_main_v9_apply, val_main_v6_apply]
  exact congrArg x (funext fun a => by match a with | ⟨0, _⟩ => rfl)

/-- A cell's lower knot repeated over the queries. -/
theorem lower_apply (xp : (⟨S17, .f32⟩ : BufTy).Contents (Elt Ideal)) (p : Fin 4194304) (i : Fin 16) :
    val_main_v10 (F := Ideal) xp (ix2 p i) = xp (ix1 i.castSucc) := by
  rw [val_main_v10_apply, val_main_v8_apply, val_main_v0_apply]
  exact congrArg xp (funext fun a => by match a with | ⟨0, _⟩ => exact Fin.ext rfl)

/-- A cell's upper knot repeated over the queries. -/
theorem upper_apply (xp : (⟨S17, .f32⟩ : BufTy).Contents (Elt Ideal)) (p : Fin 4194304) (i : Fin 16) :
    val_main_v15 (F := Ideal) xp (ix2 p i) = xp (ix1 i.succ) := by
  rw [val_main_v15_apply, val_main_v13_apply, val_main_v1_apply]
  exact congrArg xp (funext fun a => by
    match a with
    | ⟨0, _⟩ => exact Fin.ext (by show 1 + i.val = i.val + 1; omega))

/-- A cell's width repeated over the queries. -/
theorem width_apply (xp : (⟨S17, .f32⟩ : BufTy).Contents (Elt Ideal)) (p : Fin 4194304) (i : Fin 16) :
    val_main_v20 (F := Ideal) xp (ix2 p i) = xp (ix1 i.succ) - xp (ix1 i.castSucc) := by
  rw [val_main_v20_apply, val_main_v19_apply, val_main_v4_apply, val_main_v1_apply, val_main_v0_apply]
  show xp _ - xp _ = _
  refine congrArg₂ (· - ·) (congrArg xp (funext fun a => by
    match a with
    | ⟨0, _⟩ => exact Fin.ext (by show 1 + i.val = i.val + 1; omega))) (congrArg xp (funext fun a => by
    match a with
    | ⟨0, _⟩ => exact Fin.ext rfl))

/-- The clamp's zero and the one, at every index. -/
theorem zero_apply (j : S4194304x16.Idx) : val_main_call0_v0 (F := Ideal) j = zeroW := rfl
theorem one_apply (j : S4194304x16.Idx) : val_main_v50 (F := Ideal) j = oneW := rfl

/-- The four corners of the grid values. -/
theorem c00_apply (z : (⟨S17x17, .f32⟩ : BufTy).Contents (Elt Ideal)) (i j : Fin 16) :
    val_main_v58 (F := Ideal) z (ix2 i j) = z (ix2 i.castSucc j.castSucc) := by
  rw [val_main_v58_apply]
  exact congrArg z (funext fun a => by
    match a with
    | ⟨0, _⟩ => exact Fin.ext rfl
    | ⟨1, _⟩ => exact Fin.ext rfl)
theorem c10_apply (z : (⟨S17x17, .f32⟩ : BufTy).Contents (Elt Ideal)) (i j : Fin 16) :
    val_main_v59 (F := Ideal) z (ix2 i j) = z (ix2 i.succ j.castSucc) := by
  rw [val_main_v59_apply]
  exact congrArg z (funext fun a => by
    match a with
    | ⟨0, _⟩ => exact Fin.ext (by show 1 + i.val = i.val + 1; omega)
    | ⟨1, _⟩ => exact Fin.ext rfl)
theorem c01_apply (z : (⟨S17x17, .f32⟩ : BufTy).Contents (Elt Ideal)) (i j : Fin 16) :
    val_main_v60 (F := Ideal) z (ix2 i j) = z (ix2 i.castSucc j.succ) := by
  rw [val_main_v60_apply]
  exact congrArg z (funext fun a => by
    match a with
    | ⟨0, _⟩ => exact Fin.ext rfl
    | ⟨1, _⟩ => exact Fin.ext (by show 1 + j.val = j.val + 1; omega))
theorem c11_apply (z : (⟨S17x17, .f32⟩ : BufTy).Contents (Elt Ideal)) (i j : Fin 16) :
    val_main_v61 (F := Ideal) z (ix2 i j) = z (ix2 i.succ j.succ) := by
  rw [val_main_v61_apply]
  exact congrArg z (funext fun a => by
    match a with
    | ⟨0, _⟩ => exact Fin.ext (by show 1 + i.val = i.val + 1; omega)
    | ⟨1, _⟩ => exact Fin.ext (by show 1 + j.val = j.val + 1; omega))

/-! ## The repeated stages are one stage -/

theorem v14_eq (x : (⟨S4194304, .f32⟩ : BufTy).Contents (Elt Ideal)) : val_main_v14 (F := Ideal) x = val_main_v9 x := rfl
theorem v37_eq (x : (⟨S4194304, .f32⟩ : BufTy).Contents (Elt Ideal)) : val_main_v37 (F := Ideal) x = val_main_v9 x := rfl
theorem v23_eq (x : (⟨S4194304, .f32⟩ : BufTy).Contents (Elt Ideal)) : val_main_v23 (F := Ideal) x = val_main_v9 x := rfl
theorem v28_eq (x : (⟨S4194304, .f32⟩ : BufTy).Contents (Elt Ideal)) : val_main_v28 (F := Ideal) x = val_main_v9 x := rfl
theorem v44_eq (x : (⟨S4194304, .f32⟩ : BufTy).Contents (Elt Ideal)) : val_main_v44 (F := Ideal) x = val_main_v9 x := rfl
theorem v38_eq (xp : (⟨S17, .f32⟩ : BufTy).Contents (Elt Ideal)) : val_main_v38 (F := Ideal) xp = val_main_v10 xp := rfl
theorem v24_eq (xp : (⟨S17, .f32⟩ : BufTy).Contents (Elt Ideal)) : val_main_v24 (F := Ideal) xp = val_main_v10 xp := rfl
theorem v45_eq (xp : (⟨S17, .f32⟩ : BufTy).Contents (Elt Ideal)) : val_main_v45 (F := Ideal) xp = val_main_v10 xp := rfl
theorem v29_eq (xp : (⟨S17, .f32⟩ : BufTy).Contents (Elt Ideal)) : val_main_v29 (F := Ideal) xp = val_main_v15 xp := rfl
theorem v41_eq (xp : (⟨S17, .f32⟩ : BufTy).Contents (Elt Ideal)) : val_main_v41 (F := Ideal) xp = val_main_v20 xp := rfl
theorem v34_eq (xp : (⟨S17, .f32⟩ : BufTy).Contents (Elt Ideal)) : val_main_v34 (F := Ideal) xp = val_main_v20 xp := rfl
theorem v48_eq (xp : (⟨S17, .f32⟩ : BufTy).Contents (Elt Ideal)) : val_main_v48 (F := Ideal) xp = val_main_v20 xp := rfl

/-! ## The weights -/

/-- The hinge difference of a coordinate against a cell, from the two clamped offsets. -/
theorem hinge_apply (x : (⟨S4194304, .f32⟩ : BufTy).Contents (Elt Ideal)) (xp : (⟨S17, .f32⟩ : BufTy).Contents (Elt Ideal))
    (p : Fin 4194304) (i : Fin 16) :
    val_main_v18 (F := Ideal) x xp (ix2 p i) = hinge (x (ix1 p)) (xp (ix1 i.castSucc)) (xp (ix1 i.succ)) := by
  rw [val_main_v18_apply, val_main_v12_apply, val_main_v17_apply, val_main_v11_apply, val_main_v16_apply, v14_eq,
    coord_apply, lower_apply, upper_apply]
  rfl

theorem lo_apply (x : (⟨S4194304, .f32⟩ : BufTy).Contents (Elt Ideal)) (xp : (⟨S17, .f32⟩ : BufTy).Contents (Elt Ideal))
    (p : Fin 4194304) (i : Fin 16) :
    val_main_v52 (F := Ideal) x xp (ix2 p i) = loDiv (x (ix1 p)) (xp (ix1 i.castSucc)) (xp (ix1 i.succ)) := by
  rw [val_main_v52_apply, val_main_v21_apply, val_main_v51_apply, val_main_v42_apply, val_main_v39_apply, hinge_apply,
    v37_eq, v38_eq, v41_eq, coord_apply, lower_apply, width_apply]
  rfl

theorem hi_apply (x : (⟨S4194304, .f32⟩ : BufTy).Contents (Elt Ideal)) (xp : (⟨S17, .f32⟩ : BufTy).Contents (Elt Ideal))
    (p : Fin 4194304) (i : Fin 16) :
    val_main_v53 (F := Ideal) x xp (ix2 p i) = hiDiv (x (ix1 p)) (xp (ix1 i.castSucc)) (xp (ix1 i.succ)) := by
  rw [val_main_v53_apply, val_main_v21_apply, val_main_v42_apply, val_main_v39_apply, hinge_apply,
    v37_eq, v38_eq, v41_eq, coord_apply, lower_apply, width_apply]
  rfl

/-- On the y-axis the same stages are printed again over the y-arguments: each is the x-axis stage at those arguments. -/
theorem v56_eq (y : (⟨S4194304, .f32⟩ : BufTy).Contents (Elt Ideal)) (yp : (⟨S17, .f32⟩ : BufTy).Contents (Elt Ideal)) :
    val_main_v56 (F := Ideal) y yp = val_main_v52 y yp := rfl
theorem v57_eq (y : (⟨S4194304, .f32⟩ : BufTy).Contents (Elt Ideal)) (yp : (⟨S17, .f32⟩ : BufTy).Contents (Elt Ideal)) :
    val_main_v57 (F := Ideal) y yp = val_main_v53 y yp := rfl

/-! ## The contractions, and the sum over the cell columns -/

/-- The operand indices of the four contractions at query `p`, cell column `j` and cell row `k`: weight `(p, k)` times
    corner entry `(k, j)`. -/
theorem l62 (p : Fin 4194304) (j k : Fin 16) : lidx_main_v62 (ix2 p j) k = ix2 p k :=
  funext fun a => by match a with | ⟨0, _⟩ => rfl | ⟨1, _⟩ => rfl
theorem r62 (p : Fin 4194304) (j k : Fin 16) : ridx_main_v62 (ix2 p j) k = ix2 k j :=
  funext fun a => by match a with | ⟨0, _⟩ => rfl | ⟨1, _⟩ => rfl
theorem l63 (p : Fin 4194304) (j k : Fin 16) : lidx_main_v63 (ix2 p j) k = ix2 p k :=
  funext fun a => by match a with | ⟨0, _⟩ => rfl | ⟨1, _⟩ => rfl
theorem r63 (p : Fin 4194304) (j k : Fin 16) : ridx_main_v63 (ix2 p j) k = ix2 k j :=
  funext fun a => by match a with | ⟨0, _⟩ => rfl | ⟨1, _⟩ => rfl
theorem l65 (p : Fin 4194304) (j k : Fin 16) : lidx_main_v65 (ix2 p j) k = ix2 p k :=
  funext fun a => by match a with | ⟨0, _⟩ => rfl | ⟨1, _⟩ => rfl
theorem r65 (p : Fin 4194304) (j k : Fin 16) : ridx_main_v65 (ix2 p j) k = ix2 k j :=
  funext fun a => by match a with | ⟨0, _⟩ => rfl | ⟨1, _⟩ => rfl
theorem l66 (p : Fin 4194304) (j k : Fin 16) : lidx_main_v66 (ix2 p j) k = ix2 p k :=
  funext fun a => by match a with | ⟨0, _⟩ => rfl | ⟨1, _⟩ => rfl
theorem r66 (p : Fin 4194304) (j k : Fin 16) : ridx_main_v66 (ix2 p j) k = ix2 k j :=
  funext fun a => by match a with | ⟨0, _⟩ => rfl | ⟨1, _⟩ => rfl

/-- The x-contraction against the two corners at the LOWER y-knot of cell column `j`. -/
theorem lowRow_apply (p : Fin 4194304) (j : Fin 16) :
    val_main_v64 (F := Ideal) x0 x2 x4 (ix2 p j)
      = ∑ i : Fin 16, loDiv (x0 (ix1 p)) (x2 (ix1 i.castSucc)) (x2 (ix1 i.succ)) * x4 (ix2 i.castSucc j.castSucc)
        + ∑ i : Fin 16, hiDiv (x0 (ix1 p)) (x2 (ix1 i.castSucc)) (x2 (ix1 i.succ)) * x4 (ix2 i.succ j.castSucc) := by
  rw [val_main_v64_apply, val_main_v62_apply, val_main_v63_apply]
  refine congrArg₂ (· + ·) (Finset.sum_congr rfl fun k _ => ?_) (Finset.sum_congr rfl fun k _ => ?_)
  · rw [l62, r62, lo_apply, c00_apply]
  · rw [l63, r63, hi_apply, c10_apply]

/-- The x-contraction against the two corners at the UPPER y-knot of cell column `j`. -/
theorem highRow_apply (p : Fin 4194304) (j : Fin 16) :
    val_main_v67 (F := Ideal) x0 x2 x4 (ix2 p j)
      = ∑ i : Fin 16, loDiv (x0 (ix1 p)) (x2 (ix1 i.castSucc)) (x2 (ix1 i.succ)) * x4 (ix2 i.castSucc j.succ)
        + ∑ i : Fin 16, hiDiv (x0 (ix1 p)) (x2 (ix1 i.castSucc)) (x2 (ix1 i.succ)) * x4 (ix2 i.succ j.succ) := by
  rw [val_main_v67_apply, val_main_v65_apply, val_main_v66_apply]
  refine congrArg₂ (· + ·) (Finset.sum_congr rfl fun k _ => ?_) (Finset.sum_congr rfl fun k _ => ?_)
  · rw [l65, r65, lo_apply, c01_apply]
  · rw [l66, r66, hi_apply, c11_apply]

/-- THE REFERENCE'S RESULT is the interpolant of its arguments, at every query. -/
theorem result_eq : val_main_v71 (F := Ideal) x0 x1 x2 x3 x4 = interpolant x0 x1 x2 x3 x4 := by
  funext p'
  obtain ⟨p, rfl⟩ : ∃ p : Fin 4194304, p' = ix1 p := ⟨p' 0, eq_ix1 p'⟩
  rw [val_main_v71_apply]
  show Ideal.ofBits .f32 0x00000000#32 + _ = _
  rw [Ideal.ofBits_zero_f32, zero_add]
  unfold interpolant cells
  refine Finset.sum_congr rfl fun j _ => ?_
  have hi : idx_main_v71 (ix1 p) j = ix2 p j := funext fun a => by match a with | ⟨0, _⟩ => rfl | ⟨1, _⟩ => rfl
  rw [hi, val_main_v70_apply, val_main_v68_apply, val_main_v69_apply, lowRow_apply, highRow_apply, v56_eq, v57_eq,
    lo_apply, hi_apply]
  rfl

end Cert.ReferenceIdeal.RefValue

end
-- ==== Proof.Domain.lean ====
/-
  What the precondition says of the knots: on each axis every cell has a nonzero width.

  The precondition is a conjunction; its last two conjuncts compare, cell by cell, the difference of consecutive knots
  with zero (`upper - lower ≠ 0`) and take the conjunction over the sixteen cells. The conjunction being one gives each
  comparison as one, and on the extended reals a comparison "not equal" that is one says the two sides differ.
-/
import proofs.«126998_j44014824849725_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Domain

open Idealize.ShloMosaic Idealize.ShloMosaic.ValueIdx Cert.Pre_finite_inputs

variable [Cert.Pre_finite_inputs.Facts]

instance : Subsingleton Cert.Pre_finite_inputs.S_.Idx := ⟨fun a b => funext fun d => d.elim0⟩

/-- One cell's comparison being one: the cell's width is not zero. -/
theorem width_ne_zero (xp : FVec Ideal S17 .f32) (h1 : S17.Slices ![1] S16) (h0 : S17.Slices ![0] S16)
    (hb : S_.BroadcastsInDim S16 (![] : Fin 0 → Fin S16.rank)) (i : Fin 16)
    (e : cmpf .une (subf (extractStridedSlice S16 ![1] xp h1) (extractStridedSlice S16 ![0] xp h0))
          (broadcastInDim S16 ![] hb (constant (F := Ideal) S_ .f32 0x00000000#32)) (ix1 i) = 1#1) :
    xp (ix1 i.succ) - xp (ix1 i.castSucc) ≠ 0 := by
  have e1 : extractStridedSlice S16 ![1] xp h1 (ix1 i) = xp (ix1 i.succ) :=
    extractStridedSlice_apply ![1] xp h1 (ix1 i) (ix1 i.succ) fun a => by
      match a with
      | ⟨0, _⟩ => show i.val + 1 = 1 + i.val; omega
  have e0 : extractStridedSlice S16 ![0] xp h0 (ix1 i) = xp (ix1 i.castSucc) :=
    extractStridedSlice_apply ![0] xp h0 (ix1 i) (ix1 i.castSucc) fun a => by
      match a with
      | ⟨0, _⟩ => show i.val = 0 + i.val; omega
  have e' : Ideal.cmp .une (extractStridedSlice S16 ![1] xp h1 (ix1 i) - extractStridedSlice S16 ![0] xp h0 (ix1 i))
      (Ideal.ofBits .f32 0x00000000#32) = 1#1 := e
  rw [e1, e0, Ideal.ofBits_zero_f32] at e'
  intro hz
  rw [hz] at e'
  simp [Ideal.cmp] at e'

/-- THE DOMAIN: where the precondition holds, every cell of either axis has a nonzero width. -/
theorem widths_ne_zero (a0 a1 : FVec Ideal S4194304 .f32) (a2 a3 : FVec Ideal S17 .f32) (a4 : FVec Ideal S17x17 .f32)
    (h : Cert.Pre_finite_inputs.fn (F := Ideal) a0 a1 a2 a3 a4 = fun _ => 1#1) :
    (∀ i : Fin 16, a2 (ix1 i.succ) - a2 (ix1 i.castSucc) ≠ 0)
      ∧ (∀ j : Fin 16, a3 (ix1 j.succ) - a3 (ix1 j.castSucc) ≠ 0) := by
  have e := congrFun h ix0
  dsimp only [Cert.Pre_finite_inputs.fn, Cert.Pre_finite_inputs.fn_part1, Cert.Pre_finite_inputs.fn_part2] at e
  obtain ⟨e1, eY⟩ := IntOp.andi_eq_one.1 e
  obtain ⟨_, eX⟩ := IntOp.andi_eq_one.1 e1
  exact ⟨fun i => width_ne_zero a2 _ _ _ i (Host.reduce_andi_all _ _ _ _ ix0 eX (ix1 i)),
    fun j => width_ne_zero a3 _ _ _ j (Host.reduce_andi_all _ _ _ _ ix0 eY (ix1 j))⟩

end Cert.Domain

end
-- ==== Proof.lean ====
/-
  Piecewise-bilinear interpolation of 4 194 304 query points over a 16 × 16 grid of cells, every cell's hinge indicator
  kept: a kernel that stacks the per-cell weights, contracts them with one 32 × 32 block matrix of the grid values and
  multiplies by reciprocal cell widths prepared beforehand, against a reference that divides by the widths and contracts
  the four corner grids separately.

  On the extended reals the two agree wherever every cell width is nonzero, which the precondition states (beside
  finiteness, which the argument does not use):
  * multiplying by `1 / w` is dividing by `w` for every nonzero `w` (both are the product with `w⁻¹`); at `w = 0` they
    differ (`0 · (1/0) = 0` against `0 / 0`), and the reference itself is undefined there;
  * one contraction with the block matrix, then a sum over 32 rows, is the four corner contractions added in pairs and
    summed over the 16 cell columns: sums over 32 indices split into halves, and sums and products commute and
    associate (no distributivity).
  `Interp.interpolant` (Proof/Spec.lean) is the common value. The kernel's result array is that function of the arguments by
  Proof/KernelPoint.lean (one grid step's stored value at a lane), Proof/Operands.lean (the prepared operand arrays at an
  index) and Proof/Whole.lean (from the 256 blocks to the array); the reference's by Proof/RefValue.lean; the nonzero
  widths are read out of the precondition in Proof/Domain.lean. The kernel's idealization rewrote nothing, so nothing is owed
  for it.
-/
import proofs.«126998_j44014824849725_2_alg».proof.Defs
import proofs.«126998_j44014824849725_2_alg».proof.Proof.Gen.Kernel
import proofs.«126998_j44014824849725_2_alg».proof.Proof.Gen.Kernel.Skeleton
import proofs.«126998_j44014824849725_2_alg».proof.Proof.Gen.Kernel.Launch
import proofs.«126998_j44014824849725_2_alg».proof.Proof.Gen.Kernel.Points
import proofs.«126998_j44014824849725_2_alg».proof.Proof.Gen.Kernel.Frame
import proofs.«126998_j44014824849725_2_alg».proof.Proof.Gen.KernelIdeal
import proofs.«126998_j44014824849725_2_alg».proof.Proof.Gen.KernelIdeal.Skeleton
import proofs.«126998_j44014824849725_2_alg».proof.Proof.Gen.KernelIdeal.Launch
import proofs.«126998_j44014824849725_2_alg».proof.Proof.Gen.KernelIdeal.Points
import proofs.«126998_j44014824849725_2_alg».proof.Proof.Gen.KernelIdeal.Frame
import proofs.«126998_j44014824849725_2_alg».proof.Proof.Gen.ReferenceIdeal
import proofs.«126998_j44014824849725_2_alg».proof.Proof.Gen.Pre_finite_inputs
import proofs.«126998_j44014824849725_2_alg».proof.Proof.Gen.KernelIdeal.Value
import proofs.«126998_j44014824849725_2_alg».proof.Proof.Gen.ReferenceIdeal.Run
import proofs.«126998_j44014824849725_2_alg».proof.Proof.Gen.ReferenceIdeal.Read
import proofs.«126998_j44014824849725_2_alg».proof.Proof.Whole
import proofs.«126998_j44014824849725_2_alg».proof.Proof.RefValue
import proofs.«126998_j44014824849725_2_alg».proof.Proof.Domain
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts]

/-- The word-level kernel runs and leaves its arguments as they were. -/
theorem frame_kernel [Cert.Pre_finite_inputs.Facts] : Cert.frame_Kernel := fun m ρ _ => Cert.Kernel.Gen.frame m ρ

/-- So does the kernel read at the extended reals. -/
theorem frame_kernelIdeal [Cert.Pre_finite_inputs.Facts] : Cert.frame_KernelIdeal := fun m ρ _ => Cert.KernelIdeal.Gen.frame m ρ

/-- The reference is a straight line of array operations: its run, the result dropped. -/
theorem frame_referenceIdeal [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs end with the interpolant of the arguments in their result array: the kernel's by its blocks, where the
    precondition makes every cell width nonzero; the reference's by its operations; the arguments agree. -/
theorem algebraic [Cert.Pre_finite_inputs.Facts] : Cert.algebraic_KernelIdeal_ReferenceIdeal := by
  intro m ρ m' ρ' hpre hagree
  have hw := fun c => Cert.Domain.widths_ne_zero _ _ _ _ _ (hpre c)
  refine ⟨fun c => Cert.KernelIdeal.Whole.result m c,
    Cert.KernelIdeal.Whole.run m ρ (fun c => (hw c).1) (fun c => (hw c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, Cert.ReferenceIdeal.RefValue.result_eq, (hagree c).1, (hagree c).2.1,
    (hagree c).2.2.1, (hagree c).2.2.2.1, (hagree c).2.2.2.2]

end

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
